-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x172 : Shape := ⟨2, ![8192, 172]⟩
abbrev S8192x50x172 : Shape := ⟨3, ![8192, 50, 172]⟩
abbrev S8192x50x100 : Shape := ⟨3, ![8192, 50, 100]⟩
abbrev S8192x50 : Shape := ⟨2, ![8192, 50]⟩
abbrev S172x444 : Shape := ⟨2, ![172, 444]⟩
abbrev S172 : Shape := ⟨1, ![172]⟩
abbrev S172x344 : Shape := ⟨2, ![172, 344]⟩
abbrev S172x172 : Shape := ⟨2, ![172, 172]⟩
abbrev S_ : Shape := ⟨0, ![]⟩

class Facts : Prop where
  bcast_S_S8192x172 : S_.BroadcastsInDim S8192x172 (![] : Fin 0 → Fin S8192x172.rank)
  reducesTo_S8192x172_S_d0_1 : S8192x172.ReducesTo [0, 1] S_
  h_S_ : 0 < S_.numel
  bcast_S_S8192x50x172 : S_.BroadcastsInDim S8192x50x172 (![] : Fin 0 → Fin S8192x50x172.rank)
  reducesTo_S8192x50x172_S_d0_1_2 : S8192x50x172.ReducesTo [0, 1, 2] S_
  bcast_S_S8192x50x100 : S_.BroadcastsInDim S8192x50x100 (![] : Fin 0 → Fin S8192x50x100.rank)
  reducesTo_S8192x50x100_S_d0_1_2 : S8192x50x100.ReducesTo [0, 1, 2] S_
  bcast_S_S8192x50 : S_.BroadcastsInDim S8192x50 (![] : Fin 0 → Fin S8192x50.rank)
  reducesTo_S8192x50_S_d0_1 : S8192x50.ReducesTo [0, 1] S_
  bcast_S_S172x444 : S_.BroadcastsInDim S172x444 (![] : Fin 0 → Fin S172x444.rank)
  reducesTo_S172x444_S_d0_1 : S172x444.ReducesTo [0, 1] S_
  bcast_S_S172 : S_.BroadcastsInDim S172 (![] : Fin 0 → Fin S172.rank)
  reducesTo_S172_S_d0 : S172.ReducesTo [0] S_
  bcast_S_S172x344 : S_.BroadcastsInDim S172x344 (![] : Fin 0 → Fin S172x344.rank)
  reducesTo_S172x344_S_d0_1 : S172x344.ReducesTo [0, 1] S_
  bcast_S_S172x172 : S_.BroadcastsInDim S172x172 (![] : Fin 0 → Fin S172x172.rank)
  reducesTo_S172x172_S_d0_1 : S172x172.ReducesTo [0, 1] S_

variable [Facts]

def fn_part3 {F : FTy → Type} [FloatOps F] (main_v48 : IVec S_ 1) (main_v49 : FVec F S172 .f32) (main_v50 : FVec F S172 .f32) : IVec S_ 1 :=
  let main_v51 : IVec S172 1 := cmpf .olt main_v49 main_v50
  let main_c_19 : IVec S_ 1 := constantI S_ 1 1#1
  let main_v52 : IVec S_ 1 := (fun x v => Host.reduce IntOp.andi x v reducesTo_S172_S_d0 h_S_) main_v51 main_c_19
  let main_v53 : IVec S_ 1 := andi main_v48 main_v52
  main_v53

def fn_part2 {F : FTy → Type} [FloatOps F] (main_arg8 : FVec F S172x344 .f32) (main_arg9 : FVec F S172 .f32) (main_arg10 : FVec F S172x172 .f32) (main_arg11 : FVec F S172 .f32) (main_v33 : IVec S_ 1) : IVec S_ 1 :=
  let main_v34 : FVec F S172x344 .f32 := Host.absf main_arg8
  let main_cst_12 : FVec F S_ .f32 := constant S_ .f32 0x7F800000#32
  let main_v35 : FVec F S172x344 .f32 := broadcastInDim S172x344 ![] bcast_S_S172x344 main_cst_12
  let main_v36 : IVec S172x344 1 := cmpf .olt main_v34 main_v35
  let main_c_13 : IVec S_ 1 := constantI S_ 1 1#1
  let main_v37 : IVec S_ 1 := (fun x v => Host.reduce IntOp.andi x v reducesTo_S172x344_S_d0_1 h_S_) main_v36 main_c_13
  let main_v38 : IVec S_ 1 := andi main_v33 main_v37
  let main_v39 : FVec F S172 .f32 := Host.absf main_arg9
  let main_cst_14 : FVec F S_ .f32 := constant S_ .f32 0x7F800000#32
  let main_v40 : FVec F S172 .f32 := broadcastInDim S172 ![] bcast_S_S172 main_cst_14
  let main_v41 : IVec S172 1 := cmpf .olt main_v39 main_v40
  let main_c_15 : IVec S_ 1 := constantI S_ 1 1#1
  let main_v42 : IVec S_ 1 := (fun x v => Host.reduce IntOp.andi x v reducesTo_S172_S_d0 h_S_) main_v41 main_c_15
  let main_v43 : IVec S_ 1 := andi main_v38 main_v42
  let main_v44 : FVec F S172x172 .f32 := Host.absf main_arg10
  let main_cst_16 : FVec F S_ .f32 := constant S_ .f32 0x7F800000#32
  let main_v45 : FVec F S172x172 .f32 := broadcastInDim S172x172 ![] bcast_S_S172x172 main_cst_16
  let main_v46 : IVec S172x172 1 := cmpf .olt main_v44 main_v45
  let main_c_17 : IVec S_ 1 := constantI S_ 1 1#1
  let main_v47 : IVec S_ 1 := (fun x v => Host.reduce IntOp.andi x v reducesTo_S172x172_S_d0_1 h_S_) main_v46 main_c_17
  let main_v48 : IVec S_ 1 := andi main_v43 main_v47
  let main_v49 : FVec F S172 .f32 := Host.absf main_arg11
  let main_cst_18 : FVec F S_ .f32 := constant S_ .f32 0x7F800000#32
  let main_v50 : FVec F S172 .f32 := broadcastInDim S172 ![] bcast_S_S172 main_cst_18
  fn_part3 (F := F) main_v48 main_v49 main_v50

def fn_part1 {F : FTy → Type} [FloatOps F] (main_arg5 : FVec F S8192x50 .f32) (main_arg6 : FVec F S172x444 .f32) (main_arg7 : FVec F S172 .f32) (main_arg8 : FVec F S172x344 .f32) (main_arg9 : FVec F S172 .f32) (main_arg10 : FVec F S172x172 .f32) (main_arg11 : FVec F S172 .f32) (main_v13 : IVec S_ 1) (main_v16 : IVec S8192x50x172 1) : IVec S_ 1 :=
  let main_c_5 : IVec S_ 1 := constantI S_ 1 1#1
  let main_v17 : IVec S_ 1 := (fun x v => Host.reduce IntOp.andi x v reducesTo_S8192x50x172_S_d0_1_2 h_S_) main_v16 main_c_5
  let main_v18 : IVec S_ 1 := andi main_v13 main_v17
  let main_v19 : FVec F S8192x50 .f32 := Host.absf main_arg5
  let main_cst_6 : FVec F S_ .f32 := constant S_ .f32 0x7F800000#32
  let main_v20 : FVec F S8192x50 .f32 := broadcastInDim S8192x50 ![] bcast_S_S8192x50 main_cst_6
  let main_v21 : IVec S8192x50 1 := cmpf .olt main_v19 main_v20
  let main_c_7 : IVec S_ 1 := constantI S_ 1 1#1
  let main_v22 : IVec S_ 1 := (fun x v => Host.reduce IntOp.andi x v reducesTo_S8192x50_S_d0_1 h_S_) main_v21 main_c_7
  let main_v23 : IVec S_ 1 := andi main_v18 main_v22
  let main_v24 : FVec F S172x444 .f32 := Host.absf main_arg6
  let main_cst_8 : FVec F S_ .f32 := constant S_ .f32 0x7F800000#32
  let main_v25 : FVec F S172x444 .f32 := broadcastInDim S172x444 ![] bcast_S_S172x444 main_cst_8
  let main_v26 : IVec S172x444 1 := cmpf .olt main_v24 main_v25
  let main_c_9 : IVec S_ 1 := constantI S_ 1 1#1
  let main_v27 : IVec S_ 1 := (fun x v => Host.reduce IntOp.andi x v reducesTo_S172x444_S_d0_1 h_S_) main_v26 main_c_9
  let main_v28 : IVec S_ 1 := andi main_v23 main_v27
  let main_v29 : FVec F S172 .f32 := Host.absf main_arg7
  let main_cst_10 : FVec F S_ .f32 := constant S_ .f32 0x7F800000#32
  let main_v30 : FVec F S172 .f32 := broadcastInDim S172 ![] bcast_S_S172 main_cst_10
  let main_v31 : IVec S172 1 := cmpf .olt main_v29 main_v30
  let main_c_11 : IVec S_ 1 := constantI S_ 1 1#1
  let main_v32 : IVec S_ 1 := (fun x v => Host.reduce IntOp.andi x v reducesTo_S172_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8192x172 .f32) (main_arg1 : FVec F S8192x50x172 .f32) (main_arg2 : FVec F S8192x50x100 .f32) (main_arg3 : FVec F S8192x50x172 .f32) (main_arg4 : IVec S8192x50 1) (main_arg5 : FVec F S8192x50 .f32) (main_arg6 : FVec F S172x444 .f32) (main_arg7 : FVec F S172 .f32) (main_arg8 : FVec F S172x344 .f32) (main_arg9 : FVec F S172 .f32) (main_arg10 : FVec F S172x172 .f32) (main_arg11 : FVec F S172 .f32) : IVec S_ 1 :=
  let main_v0 : FVec F S8192x172 .f32 := Host.absf main_arg0
  let main_cst : FVec F S_ .f32 := constant S_ .f32 0x7F800000#32
  let main_v1 : FVec F S8192x172 .f32 := broadcastInDim S8192x172 ![] bcast_S_S8192x172 main_cst
  let main_v2 : IVec S8192x172 1 := cmpf .olt main_v0 main_v1
  let main_c : IVec S_ 1 := constantI S_ 1 1#1
  let main_v3 : IVec S_ 1 := (fun x v => Host.reduce IntOp.andi x v reducesTo_S8192x172_S_d0_1 h_S_) main_v2 main_c
  let main_v4 : FVec F S8192x50x172 .f32 := Host.absf main_arg1
  let main_cst_0 : FVec F S_ .f32 := constant S_ .f32 0x7F800000#32
  let main_v5 : FVec F S8192x50x172 .f32 := broadcastInDim S8192x50x172 ![] bcast_S_S8192x50x172 main_cst_0
  let main_v6 : IVec S8192x50x172 1 := cmpf .olt main_v4 main_v5
  let main_c_1 : IVec S_ 1 := constantI S_ 1 1#1
  let main_v7 : IVec S_ 1 := (fun x v => Host.reduce IntOp.andi x v reducesTo_S8192x50x172_S_d0_1_2 h_S_) main_v6 main_c_1
  let main_v8 : IVec S_ 1 := andi main_v3 main_v7
  let main_v9 : FVec F S8192x50x100 .f32 := Host.absf main_arg2
  let main_cst_2 : FVec F S_ .f32 := constant S_ .f32 0x7F800000#32
  let main_v10 : FVec F S8192x50x100 .f32 := broadcastInDim S8192x50x100 ![] bcast_S_S8192x50x100 main_cst_2
  let main_v11 : IVec S8192x50x100 1 := cmpf .olt main_v9 main_v10
  let main_c_3 : IVec S_ 1 := constantI S_ 1 1#1
  let main_v12 : IVec S_ 1 := (fun x v => Host.reduce IntOp.andi x v reducesTo_S8192x50x100_S_d0_1_2 h_S_) main_v11 main_c_3
  let main_v13 : IVec S_ 1 := andi main_v8 main_v12
  let main_v14 : FVec F S8192x50x172 .f32 := Host.absf main_arg3
  let main_cst_4 : FVec F S_ .f32 := constant S_ .f32 0x7F800000#32
  let main_v15 : FVec F S8192x50x172 .f32 := broadcastInDim S8192x50x172 ![] bcast_S_S8192x50x172 main_cst_4
  let main_v16 : IVec S8192x50x172 1 := cmpf .olt main_v14 main_v15
  fn_part1 (F := F) main_arg5 main_arg6 main_arg7 main_arg8 main_arg9 main_arg10 main_arg11 main_v13 main_v16
-- ==== Kernel.lean ====
abbrev S8192x172 : Shape := ⟨2, ![8192, 172]⟩
abbrev S8192x50x172 : Shape := ⟨3, ![8192, 50, 172]⟩
abbrev S8192x50x100 : Shape := ⟨3, ![8192, 50, 100]⟩
abbrev S8192x50 : Shape := ⟨2, ![8192, 50]⟩
abbrev S172x444 : Shape := ⟨2, ![172, 444]⟩
abbrev S172 : Shape := ⟨1, ![172]⟩
abbrev S172x344 : Shape := ⟨2, ![172, 344]⟩
abbrev S172x172 : Shape := ⟨2, ![172, 172]⟩
abbrev S172x100 : Shape := ⟨2, ![172, 100]⟩
abbrev S100x172 : Shape := ⟨2, ![100, 172]⟩
abbrev S409600x172 : Shape := ⟨2, ![409600, 172]⟩
abbrev S409600x100 : Shape := ⟨2, ![409600, 100]⟩
abbrev S3200x172 : Shape := ⟨2, ![3200, 172]⟩
abbrev S3200x100 : Shape := ⟨2, ![3200, 100]⟩
abbrev S64x50 : Shape := ⟨2, ![64, 50]⟩
abbrev S64x172 : Shape := ⟨2, ![64, 172]⟩
abbrev S1x172 : Shape := ⟨2, ![1, 172]⟩
abbrev S64x50x172 : Shape := ⟨3, ![64, 50, 172]⟩
abbrev S64x50x1 : Shape := ⟨3, ![64, 50, 1]⟩

abbrev nBuf : Space → Nat
  | .hbm => 28
  | .vmem => 23
  | .smem => 0
  | _ => 0

abbrev bufTy : (tb : Table) → Fin (tcTables nBuf tb) → BufTy
  | .hbm, ⟨0, _⟩ => ⟨S8192x172, .f32⟩
  | .hbm, ⟨1, _⟩ => ⟨S8192x50x172, .f32⟩
  | .hbm, ⟨2, _⟩ => ⟨S8192x50x100, .f32⟩
  | .hbm, ⟨3, _⟩ => ⟨S8192x50x172, .f32⟩
  | .hbm, ⟨4, _⟩ => ⟨S8192x50, .i1⟩
  | .hbm, ⟨5, _⟩ => ⟨S8192x50, .f32⟩
  | .hbm, ⟨6, _⟩ => ⟨S172x444, .f32⟩
  | .hbm, ⟨7, _⟩ => ⟨S172, .f32⟩
  | .hbm, ⟨8, _⟩ => ⟨S172x344, .f32⟩
  | .hbm, ⟨9, _⟩ => ⟨S172, .f32⟩
  | .hbm, ⟨10, _⟩ => ⟨S172x172, .f32⟩
  | .hbm, ⟨11, _⟩ => ⟨S172, .f32⟩
  | .hbm, ⟨12, _⟩ => ⟨S172x172, .f32⟩
  | .hbm, ⟨13, _⟩ => ⟨S172x172, .f32⟩
  | .hbm, ⟨14, _⟩ => ⟨S172x172, .f32⟩
  | .hbm, ⟨15, _⟩ => ⟨S172x172, .f32⟩
  | .hbm, ⟨16, _⟩ => ⟨S172x100, .f32⟩
  | .hbm, ⟨17, _⟩ => ⟨S100x172, .f32⟩
  | .hbm, ⟨18, _⟩ => ⟨S172x172, .f32⟩
  | .hbm, ⟨19, _⟩ => ⟨S172x172, .f32⟩
  | .hbm, ⟨20, _⟩ => ⟨S172x172, .f32⟩
  | .hbm, ⟨21, _⟩ => ⟨S172x172, .f32⟩
  | .hbm, ⟨22, _⟩ => ⟨S172x172, .f32⟩
  | .hbm, ⟨23, _⟩ => ⟨S409600x172, .f32⟩
  | .hbm, ⟨24, _⟩ => ⟨S409600x172, .f32⟩
  | .hbm, ⟨25, _⟩ => ⟨S409600x100, .f32⟩
  | .hbm, ⟨26, _⟩ => ⟨S8192x50, .i32⟩
  | .hbm, ⟨27, _⟩ => ⟨S8192x172, .f32⟩
  | .local _ .vmem, ⟨0, _⟩ => ⟨S3200x172, .f32⟩
  | .local _ .vmem, ⟨1, _⟩ => ⟨S3200x172, .f32⟩
  | .local _ .vmem, ⟨2, _⟩ => ⟨S3200x172, .f32⟩
  | .local _ .vmem, ⟨3, _⟩ => ⟨S3200x172, .f32⟩
  | .local _ .vmem, ⟨4, _⟩ => ⟨S3200x100, .f32⟩
  | .local _ .vmem, ⟨5, _⟩ => ⟨S3200x100, .f32⟩
  | .local _ .vmem, ⟨6, _⟩ => ⟨S64x50, .i32⟩
  | .local _ .vmem, ⟨7, _⟩ => ⟨S64x50, .i32⟩
  | .local _ .vmem, ⟨8, _⟩ => ⟨S64x50, .f32⟩
  | .local _ .vmem, ⟨9, _⟩ => ⟨S64x50, .f32⟩
  | .local _ .vmem, ⟨10, _⟩ => ⟨S64x172, .f32⟩
  | .local _ .vmem, ⟨11, _⟩ => ⟨S64x172, .f32⟩
  | .local _ .vmem, ⟨12, _⟩ => ⟨S172x172, .f32⟩
  | .local _ .vmem, ⟨13, _⟩ => ⟨S172x172, .f32⟩
  | .local _ .vmem, ⟨14, _⟩ => ⟨S100x172, .f32⟩
  | .local _ .vmem, ⟨15, _⟩ => ⟨S172, .f32⟩
  | .local _ .vmem, ⟨16, _⟩ => ⟨S172x172, .f32⟩
  | .local _ .vmem, ⟨17, _⟩ => ⟨S172x172, .f32⟩
  | .local _ .vmem, ⟨18, _⟩ => ⟨S172, .f32⟩
  | .local _ .vmem, ⟨19, _⟩ => ⟨S172x172, .f32⟩
  | .local _ .vmem, ⟨20, _⟩ => ⟨S172, .f32⟩
  | .local _ .vmem, ⟨21, _⟩ => ⟨S64x172, .f32⟩
  | .local _ .vmem, ⟨22, _⟩ => ⟨S64x172, .f32⟩
  | _, _ => ⟨S8192x172, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x172 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x172 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x50 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x172 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S172x172 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S172x172 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x172 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S172 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S172x172 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S172x172 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S172 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S172x172 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S172 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S64x172 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S172x444_S172x172_0_0 : S172x444.Slices ![0, 0] S172x172
  transposes_S172x172_S172x172_1_0 : S172x172.Transposes [1, 0] S172x172
  slices_S172x444_S172x172_0_172 : S172x444.Slices ![0, 172] S172x172
  slices_S172x444_S172x100_0_344 : S172x444.Slices ![0, 344] S172x100
  transposes_S172x100_S100x172_1_0 : S172x100.Transposes [1, 0] S100x172
  slices_S172x344_S172x172_0_0 : S172x344.Slices ![0, 0] S172x172
  slices_S172x344_S172x172_0_172 : S172x344.Slices ![0, 172] S172x172
  shapeCasts_S8192x50x172_S409600x172 : S8192x50x172.ShapeCasts S409600x172
  shapeCasts_S8192x50x100_S409600x100 : S8192x50x100.ShapeCasts S409600x100
  natLt_1_32 : 1 < 32
  inb_S3200x172_S3200x172_0_0 : ∀ a, (![0, 0] : Fin 2 → Nat) a + S3200x172.size a ≤ S3200x172.size a
  h_S3200x172 : 0 < S3200x172.numel
  shapeCasts_S3200x172_S3200x172 : S3200x172.ShapeCasts S3200x172
  bitsLt_bf16_f32 : FTy.bits .bf16 < FTy.bits .f32
  inb_S3200x100_S3200x100_0_0 : ∀ a, (![0, 0] : Fin 2 → Nat) a + S3200x100.size a ≤ S3200x100.size a
  h_S3200x100 : 0 < S3200x100.numel
  shapeCasts_S3200x100_S3200x100 : S3200x100.ShapeCasts S3200x100
  inb_S172x172_S172x172_0_0 : ∀ a, (![0, 0] : Fin 2 → Nat) a + S172x172.size a ≤ S172x172.size a
  h_S172x172 : 0 < S172x172.numel
  shapeCasts_S172x172_S172x172 : S172x172.ShapeCasts S172x172
  inb_S100x172_S100x172_0_0 : ∀ a, (![0, 0] : Fin 2 → Nat) a + S100x172.size a ≤ S100x172.size a
  h_S100x172 : 0 < S100x172.numel
  shapeCasts_S100x172_S100x172 : S100x172.ShapeCasts S100x172
  inb_S172_S172_0 : ∀ a, (![0] : Fin 1 → Nat) a + S172.size a ≤ S172.size a
  h_S172 : 0 < S172.numel
  shapeCasts_S172_S1x172 : S172.ShapeCasts S1x172
  broadcasts_S1x172_S3200x172 : S1x172.Broadcasts S3200x172
  shapeCasts_S3200x172_S64x50x172 : S3200x172.ShapeCasts S64x50x172
  inb_S64x50_S64x50_0_0 : ∀ a, (![0, 0] : Fin 2 → Nat) a + S64x50.size a ≤ S64x50.size a
  h_S64x50 : 0 < S64x50.numel
  shapeCasts_S64x50_S64x50x1 : S64x50.ShapeCasts S64x50x1
  broadcasts_S64x50x1_S64x50x172 : S64x50x1.Broadcasts S64x50x172
  reduces_S64x50x172_S64x172 : S64x50x172.Reduces [1] S64x172
  inb_S64x172_S64x172_0_0 : ∀ a, (![0, 0] : Fin 2 → Nat) a + S64x172.size a ≤ S64x172.size a
  h_S64x172 : 0 < S64x172.numel
  broadcasts_S1x172_S64x172 : S1x172.Broadcasts S64x172
  dot_S3200x172_S172x172_S3200x172_1_0_0_1_n_n_wf : DotDims.WF S3200x172 S172x172 S3200x172 [1] [0] [0] [1] [] []
  dot_S3200x100_S100x172_S3200x172_1_0_0_1_n_n_wf : DotDims.WF S3200x100 S100x172 S3200x172 [1] [0] [0] [1] [] []
  dot_S64x172_S172x172_S64x172_1_0_0_1_n_n_wf : DotDims.WF S64x172 S172x172 S64x172 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x172.size a ≤ S409600x172.size a
  hwx0_0 : ∀ i : grid0.Coords, EltTy.bits .f32 = 32 ∨ (Rect.block (s := S409600x172) S3200x172.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x172.size a ≤ S409600x172.size a
  hwx0_1 : ∀ i : grid0.Coords, EltTy.bits .f32 = 32 ∨ (Rect.block (s := S409600x172) S3200x172.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x100.size a ≤ S409600x100.size a
  hwx0_2 : ∀ i : grid0.Coords, EltTy.bits .f32 = 32 ∨ (Rect.block (s := S409600x100) S3200x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x50.size a ≤ S8192x50.size a
  hwx0_3 : ∀ i : grid0.Coords, EltTy.bits .i32 = 32 ∨ (Rect.block (s := S8192x50) S64x50.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x50.size a ≤ S8192x50.size a
  hwx0_4 : ∀ i : grid0.Coords, EltTy.bits .f32 = 32 ∨ (Rect.block (s := S8192x50) S64x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x172.size a ≤ S8192x172.size a
  hwx0_5 : ∀ i : grid0.Coords, EltTy.bits .f32 = 32 ∨ (Rect.block (s := S8192x172) S64x172.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S172x172.size a ≤ S172x172.size a
  hwx0_6 : ∀ i : grid0.Coords, EltTy.bits .f32 = 32 ∨ (Rect.block (s := S172x172) S172x172.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S172x172.size a ≤ S172x172.size a
  hwx0_7 : ∀ i : grid0.Coords, EltTy.bits .f32 = 32 ∨ (Rect.block (s := S172x172) S172x172.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x172.size a ≤ S100x172.size a
  hwx0_8 : ∀ i : grid0.Coords, EltTy.bits .f32 = 32 ∨ (Rect.block (s := S100x172) S100x172.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S172.size a ≤ S172.size a
  hwx0_9 : ∀ i : grid0.Coords, EltTy.bits .f32 = 32 ∨ (Rect.block (s := S172) S172.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S172x172.size a ≤ S172x172.size a
  hwx0_10 : ∀ i : grid0.Coords, EltTy.bits .f32 = 32 ∨ (Rect.block (s := S172x172) S172x172.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S172x172.size a ≤ S172x172.size a
  hwx0_11 : ∀ i : grid0.Coords, EltTy.bits .f32 = 32 ∨ (Rect.block (s := S172x172) S172x172.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S172.size a ≤ S172.size a
  hwx0_12 : ∀ i : grid0.Coords, EltTy.bits .f32 = 32 ∨ (Rect.block (s := S172) S172.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S172x172.size a ≤ S172x172.size a
  hwx0_13 : ∀ i : grid0.Coords, EltTy.bits .f32 = 32 ∨ (Rect.block (s := S172x172) S172x172.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S172.size a ≤ S172.size a
  hwx0_14 : ∀ i : grid0.Coords, EltTy.bits .f32 = 32 ∨ (Rect.block (s := S172) S172.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S64x172.size a ≤ S8192x172.size a
  hwx0_15 : ∀ i : grid0.Coords, EltTy.bits .f32 = 32 ∨ (Rect.block (s := S8192x172) S64x172.size (cc0_transform_15 i) (hinb0_15 i)).WholeWords (EltTy.packing .f32)

variable [Facts₀]

def dot_S3200x172_S172x172_S3200x172_1_0_0_1_n_n : DotDims S3200x172 S172x172 S3200x172 where
  lhsContracting := [1]
  rhsContracting := [0]
  lhsNonContracting := [0]
  rhsNonContracting := [1]
  lhsBatch := []
  rhsBatch := []
  wf := dot_S3200x172_S172x172_S3200x172_1_0_0_1_n_n_wf
def dot_S3200x100_S100x172_S3200x172_1_0_0_1_n_n : DotDims S3200x100 S100x172 S3200x172 where
  lhsContracting := [1]
  rhsContracting := [0]
  lhsNonContracting := [0]
  rhsNonContracting := [1]
  lhsBatch := []
  rhsBatch := []
  wf := dot_S3200x100_S100x172_S3200x172_1_0_0_1_n_n_wf
def dot_S64x172_S172x172_S64x172_1_0_0_1_n_n : DotDims S64x172 S172x172 S64x172 where
  lhsContracting := [1]
  rhsContracting := [0]
  lhsNonContracting := [0]
  rhsNonContracting := [1]
  lhsBatch := []
  rhsBatch := []
  wf := dot_S64x172_S172x172_S64x172_1_0_0_1_n_n_wf

abbrev win0_0 : Pipeline.Window sig grid0 :=
  Pipeline.Window.ofSpec (Memref.whole main_v11) S3200x172.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3200x172.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S3200x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x50.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S64x172.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S172x172.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S172x172.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S100x172.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S172.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S172x172.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S172x172.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S172.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S172x172.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S172.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S64x172.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x172 : Shape := ⟨2, ![8192, 172]⟩
abbrev S8192x50x172 : Shape := ⟨3, ![8192, 50, 172]⟩
abbrev S8192x50x100 : Shape := ⟨3, ![8192, 50, 100]⟩
abbrev S8192x50 : Shape := ⟨2, ![8192, 50]⟩
abbrev S172x444 : Shape := ⟨2, ![172, 444]⟩
abbrev S172 : Shape := ⟨1, ![172]⟩
abbrev S172x344 : Shape := ⟨2, ![172, 344]⟩
abbrev S172x172 : Shape := ⟨2, ![172, 172]⟩
abbrev S8192x50x444 : Shape := ⟨3, ![8192, 50, 444]⟩
abbrev S1x1x172 : Shape := ⟨3, ![1, 1, 172]⟩
abbrev S8192x50x1 : Shape := ⟨3, ![8192, 50, 1]⟩
abbrev S_ : Shape := ⟨0, ![]⟩
abbrev S8192x344 : Shape := ⟨2, ![8192, 344]⟩
abbrev S344x172 : Shape := ⟨2, ![344, 172]⟩
abbrev S1x172 : Shape := ⟨2, ![1, 172]⟩

abbrev nBuf : Space → Nat
  | .hbm => 44
  | .vmem => 0
  | .smem => 0
  | _ => 0

abbrev bufTy : (tb : Table) → Fin (tcTables nBuf tb) → BufTy
  | .hbm, ⟨0, _⟩ => ⟨S8192x172, .f32⟩
  | .hbm, ⟨1, _⟩ => ⟨S8192x50x172, .f32⟩
  | .hbm, ⟨2, _⟩ => ⟨S8192x50x100, .f32⟩
  | .hbm, ⟨3, _⟩ => ⟨S8192x50x172, .f32⟩
  | .hbm, ⟨4, _⟩ => ⟨S8192x50, .i1⟩
  | .hbm, ⟨5, _⟩ => ⟨S8192x50, .f32⟩
  | .hbm, ⟨6, _⟩ => ⟨S172x444, .f32⟩
  | .hbm, ⟨7, _⟩ => ⟨S172, .f32⟩
  | .hbm, ⟨8, _⟩ => ⟨S172x344, .f32⟩
  | .hbm, ⟨9, _⟩ => ⟨S172, .f32⟩
  | .hbm, ⟨10, _⟩ => ⟨S172x172, .f32⟩
  | .hbm, ⟨11, _⟩ => ⟨S172, .f32⟩
  | .hbm, ⟨12, _⟩ => ⟨S8192x50x444, .f32⟩
  | .hbm, ⟨13, _⟩ => ⟨S8192x50x172, .f32⟩
  | .hbm, ⟨14, _⟩ => ⟨S1x1x172, .f32⟩
  | .hbm, ⟨15, _⟩ => ⟨S8192x50x172, .f32⟩
  | .hbm, ⟨16, _⟩ => ⟨S8192x50x172, .f32⟩
  | .hbm, ⟨17, _⟩ => ⟨S8192x50, .i1⟩
  | .hbm, ⟨18, _⟩ => ⟨S8192x50, .f32⟩
  | .hbm, ⟨19, _⟩ => ⟨S8192x50x1, .f32⟩
  | .hbm, ⟨20, _⟩ => ⟨S8192x50x172, .f32⟩
  | .hbm, ⟨21, _⟩ => ⟨S8192x50x172, .f32⟩
  | .hbm, ⟨22, _⟩ => ⟨S8192x50x1, .f32⟩
  | .hbm, ⟨23, _⟩ => ⟨S8192x50x172, .f32⟩
  | .hbm, ⟨24, _⟩ => ⟨S8192x50x172, .f32⟩
  | .hbm, ⟨25, _⟩ => ⟨S_, .f32⟩
  | .hbm, ⟨26, _⟩ => ⟨S8192x50x172, .f32⟩
  | .hbm, ⟨27, _⟩ => ⟨S8192x50x172, .f32⟩
  | .hbm, ⟨28, _⟩ => ⟨S_, .f32⟩
  | .hbm, ⟨29, _⟩ => ⟨S8192x172, .f32⟩
  | .hbm, ⟨30, _⟩ => ⟨S8192x344, .f32⟩
  | .hbm, ⟨31, _⟩ => ⟨S344x172, .f32⟩
  | .hbm, ⟨32, _⟩ => ⟨S8192x172, .f32⟩
  | .hbm, ⟨33, _⟩ => ⟨S1x172, .f32⟩
  | .hbm, ⟨34, _⟩ => ⟨S8192x172, .f32⟩
  | .hbm, ⟨35, _⟩ => ⟨S8192x172, .f32⟩
  | .hbm, ⟨36, _⟩ => ⟨S_, .f32⟩
  | .hbm, ⟨37, _⟩ => ⟨S8192x172, .f32⟩
  | .hbm, ⟨38, _⟩ => ⟨S8192x172, .f32⟩
  | .hbm, ⟨39, _⟩ => ⟨S172x172, .f32⟩
  | .hbm, ⟨40, _⟩ => ⟨S8192x172, .f32⟩
  | .hbm, ⟨41, _⟩ => ⟨S1x172, .f32⟩
  | .hbm, ⟨42, _⟩ => ⟨S8192x172, .f32⟩
  | .hbm, ⟨43, _⟩ => ⟨S8192x172, .f32⟩
  | _, _ => ⟨S8192x172, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  concatenates_S8192x50x172_S8192x50x172_S8192x50x100_S8192x50x444_d2 : Shape.Concatenates [S8192x50x172, S8192x50x172, S8192x50x100] S8192x50x444 2
  bcast_S172_S1x1x172_2 : S172.BroadcastsInDim S1x1x172 (![2] : Fin 1 → Fin S1x1x172.rank)
  bcast_S1x1x172_S8192x50x172_0_1_2 : S1x1x172.BroadcastsInDim S8192x50x172 (![0, 1, 2] : Fin 3 → Fin S8192x50x172.rank)
  bcast_S8192x50_S8192x50x1_0_1 : S8192x50.BroadcastsInDim S8192x50x1 (![0, 1] : Fin 2 → Fin S8192x50x1.rank)
  bcast_S8192x50x1_S8192x50x172_0_1_2 : S8192x50x1.BroadcastsInDim S8192x50x172 (![0, 1, 2] : Fin 3 → Fin S8192x50x172.rank)
  bcast_S_S8192x50x172 : S_.BroadcastsInDim S8192x50x172 (![] : Fin 0 → Fin S8192x50x172.rank)
  reducesTo_S8192x50x172_S8192x172_d1 : S8192x50x172.ReducesTo [1] S8192x172
  h_S_ : 0 < S_.numel
  concatenates_S8192x172_S8192x172_S8192x344_d1 : Shape.Concatenates [S8192x172, S8192x172] S8192x344 1
  transposes_S172x344_S344x172_1_0 : S172x344.Transposes [1, 0] S344x172
  bcast_S172_S1x172_1 : S172.BroadcastsInDim S1x172 (![1] : Fin 1 → Fin S1x172.rank)
  bcast_S1x172_S8192x172_0_1 : S1x172.BroadcastsInDim S8192x172 (![0, 1] : Fin 2 → Fin S8192x172.rank)
  bcast_S_S8192x172 : S_.BroadcastsInDim S8192x172 (![] : Fin 0 → Fin S8192x172.rank)
  transposes_S172x172_S172x172_1_0 : S172x172.Transposes [1, 0] S172x172
  dot_S8192x50x444_S172x444_S8192x50x172_2_1_01_0_n_n_wf : DotDims.WF S8192x50x444 S172x444 S8192x50x172 [2] [1] [0, 1] [0] [] []
  dot_S8192x344_S344x172_S8192x172_1_0_0_1_n_n_wf : DotDims.WF S8192x344 S344x172 S8192x172 [1] [0] [0] [1] [] []
  dot_S8192x172_S172x172_S8192x172_1_0_0_1_n_n_wf : DotDims.WF S8192x172 S172x172 S8192x172 [1] [0] [0] [1] [] []

variable [Facts₀]

def dot_S8192x50x444_S172x444_S8192x50x172_2_1_01_0_n_n : DotDims S8192x50x444 S172x444 S8192x50x172 where
  lhsContracting := [2]
  rhsContracting := [1]
  lhsNonContracting := [0, 1]
  rhsNonContracting := [0]
  lhsBatch := []
  rhsBatch := []
  wf := dot_S8192x50x444_S172x444_S8192x50x172_2_1_01_0_n_n_wf
def dot_S8192x344_S344x172_S8192x172_1_0_0_1_n_n : DotDims S8192x344 S344x172 S8192x172 where
  lhsContracting := [1]
  rhsContracting := [0]
  lhsNonContracting := [0]
  rhsNonContracting := [1]
  lhsBatch := []
  rhsBatch := []
  wf := dot_S8192x344_S344x172_S8192x172_1_0_0_1_n_n_wf
def dot_S8192x172_S172x172_S8192x172_1_0_0_1_n_n : DotDims S8192x172 S172x172 S8192x172 where
  lhsContracting := [1]
  rhsContracting := [0]
  lhsNonContracting := [0]
  rhsNonContracting := [1]
  lhsBatch := []
  rhsBatch := []
  wf := dot_S8192x172_S172x172_S8192x172_1_0_0_1_n_n_wf

class Facts : Prop extends Facts₀ where

variable [Facts]
-- ==== Proof.Spec.lean ====
/-
  The layer as one function of its twelve argument arrays, entry by entry, on the extended reals.

  For a batch row b, a neighbour n and a feature d the hidden value is the inner product of the neighbour's three
  feature vectors (node, edge, time: 172 + 172 + 100 entries) with row d of the transform matrix, taken stream by
  stream, plus the bias.  It is scaled by the neighbour's weight times the validity of the neighbour (one where the
  padding mask is clear, zero where it is set), clipped below at zero, and the fifty neighbours are pooled by their
  maximum, started from minus infinity.  The pooled vector and the source node's vector go through a linear map of
  344 = 172 + 172 inputs (again taken half by half) with a bias and a clip at zero, and a last linear map with a bias.
-/
import Idealize.ShloMosaic.PureOps.Ideal
import Idealize.ShloMosaic.Lib.ValueIdx

noncomputable section

open scoped BigOperators

namespace Cert.Pool

open Idealize.ShloMosaic Idealize.ShloMosaic.ValueIdx

/-- The float word of zero, read on the extended reals (the same word on both sides: never evaluated). -/
abbrev zeroW : EReal := Ideal.ofBits .f32 0x00000000#32
/-- The float word of minus infinity, the value a maximum over neighbours starts from. -/
abbrev negInfW : EReal := Ideal.ofBits .f32 0xFF800000#32

/-- Validity of a neighbour from its padding bit: the complemented bit read as a number (1 when clear, 0 when set). -/
def validOf (mk : BitVec 1) : EReal := (((~~~mk).toNat : ℝ) : EReal)

/-- Column f of the first, second and third stream inside the 444 columns of the transform matrix. -/
abbrev colA (f : Fin 172) : Fin 444 := ⟨f.val, Nat.lt_of_lt_of_le f.isLt (by decide)⟩
abbrev colB (f : Fin 172) : Fin 444 := ⟨172 + f.val, by have := f.isLt; omega⟩
abbrev colC (f : Fin 100) : Fin 444 := ⟨344 + f.val, by have := f.isLt; omega⟩
/-- Column e of the pooled half and of the source half inside the 344 columns of the first merge matrix. -/
abbrev colP (e : Fin 172) : Fin 344 := ⟨e.val, Nat.lt_of_lt_of_le e.isLt (by decide)⟩
abbrev colS (e : Fin 172) : Fin 344 := ⟨172 + e.val, by have := e.isLt; omega⟩

section
variable (src : FVec Ideal ⟨2, ![8192, 172]⟩ .f32) (nbr : FVec Ideal ⟨3, ![8192, 50, 172]⟩ .f32)
  (tim : FVec Ideal ⟨3, ![8192, 50, 100]⟩ .f32) (edg : FVec Ideal ⟨3, ![8192, 50, 172]⟩ .f32)
  (msk : IVec ⟨2, ![8192, 50]⟩ 1) (wts : FVec Ideal ⟨2, ![8192, 50]⟩ .f32)
  (Wt : FVec Ideal ⟨2, ![172, 444]⟩ .f32) (bt : FVec Ideal ⟨1, ![172]⟩ .f32)
  (W1 : FVec Ideal ⟨2, ![172, 344]⟩ .f32) (b1 : FVec Ideal ⟨1, ![172]⟩ .f32)
  (W2 : FVec Ideal ⟨2, ![172, 172]⟩ .f32) (b2 : FVec Ideal ⟨1, ![172]⟩ .f32)

/-- The transformed features of neighbour n of row b at feature d: three inner products and the bias. -/
def hidden (b : Fin 8192) (n : Fin 50) (d : Fin 172) : EReal :=
  (∑ f : Fin 172, nbr (ix3 b n f) * Wt (ix2 d (colA f)))
    + (∑ f : Fin 172, edg (ix3 b n f) * Wt (ix2 d (colB f)))
    + (∑ f : Fin 100, tim (ix3 b n f) * Wt (ix2 d (colC f)))
    + bt (ix1 d)

/-- The factor a neighbour's features are scaled by: its weight times its validity. -/
def gate (b : Fin 8192) (n : Fin 50) : EReal := wts (ix2 b n) * validOf (msk (ix2 b n))

/-- The pooled feature d of row b: the maximum over the fifty neighbours of the clipped, scaled hidden value. -/
def pooled (b : Fin 8192) (d : Fin 172) : EReal :=
  (Finset.univ : Finset (Fin 50)).fold max negInfW
    (fun n => max (hidden nbr tim edg Wt bt b n d * gate msk wts b n) zeroW)

/-- The first merge layer at feature d of row b: pooled half, source half, bias, clip at zero. -/
def merged (b : Fin 8192) (d : Fin 172) : EReal :=
  max ((∑ e : Fin 172, pooled nbr tim edg msk wts Wt bt b e * W1 (ix2 d (colP e)))
        + (∑ e : Fin 172, src (ix2 b e) * W1 (ix2 d (colS e)))
        + b1 (ix1 d)) zeroW

/-- The layer's result array. -/
def out : FVec Ideal ⟨2, ![8192, 172]⟩ .f32 := fun i =>
  (∑ e : Fin 172, merged src nbr tim edg msk wts Wt bt W1 b1 (i 0) e * W2 (ix2 (i 1) e)) + b2 (ix1 (i 1))

end

/-! ### The same computation on one block of 64 batch rows

The arrays one grid point works on: 3200 = 64 · 50 flattened neighbour rows of each stream, the 64 rows' masks (widened
to 32-bit words), weights and source vectors, and the six weight matrices already cut and transposed. -/

/-- Validity from the widened padding word as the block computes it: compare with zero, complement, widen, read signed. -/
def validW (w : BitVec 32) : EReal :=
  ((((IntOp.xori (IntOp.cmpi .ne w 0#32) 1#1).setWidth 32).toInt : ℝ) : EReal)

/-- The flattened row of neighbour n of block row p. -/
abbrev flatRow (p : Fin 64) (n : Fin 50) : Fin 3200 := ⟨p.val * 50 + n.val, by have := p.isLt; have := n.isLt; omega⟩

section
variable (x0 x1 : FVec Ideal ⟨2, ![3200, 172]⟩ .f32) (x2 : FVec Ideal ⟨2, ![3200, 100]⟩ .f32)
  (x3 : IVec ⟨2, ![64, 50]⟩ 32) (x4 : FVec Ideal ⟨2, ![64, 50]⟩ .f32) (x5 : FVec Ideal ⟨2, ![64, 172]⟩ .f32)
  (x6 x7 : FVec Ideal ⟨2, ![172, 172]⟩ .f32) (x8 : FVec Ideal ⟨2, ![100, 172]⟩ .f32) (x9 : FVec Ideal ⟨1, ![172]⟩ .f32)
  (x10 x11 : FVec Ideal ⟨2, ![172, 172]⟩ .f32) (x12 : FVec Ideal ⟨1, ![172]⟩ .f32)
  (x13 : FVec Ideal ⟨2, ![172, 172]⟩ .f32) (x14 : FVec Ideal ⟨1, ![172]⟩ .f32)

def bHidden (r : Fin 3200) (d : Fin 172) : EReal :=
  (∑ f : Fin 172, x0 (ix2 r f) * x6 (ix2 f d))
    + (∑ f : Fin 172, x1 (ix2 r f) * x7 (ix2 f d))
    + (∑ f : Fin 100, x2 (ix2 r f) * x8 (ix2 f d))
    + x9 (ix1 d)

def bGate (p : Fin 64) (n : Fin 50) : EReal := x4 (ix2 p n) * validW (x3 (ix2 p n))

def bPooled (p : Fin 64) (d : Fin 172) : EReal :=
  (Finset.univ : Finset (Fin 50)).fold max negInfW
    (fun n => max (bHidden x0 x1 x2 x6 x7 x8 x9 (flatRow p n) d * bGate x3 x4 p n) zeroW)

def bMerged (p : Fin 64) (d : Fin 172) : EReal :=
  max ((∑ e : Fin 172, bPooled x0 x1 x2 x3 x4 x6 x7 x8 x9 p e * x10 (ix2 e d))
        + (∑ e : Fin 172, x5 (ix2 p e) * x11 (ix2 e d))
        + x12 (ix1 d)) zeroW

def bOut (p : Fin 64) (q : Fin 172) : EReal :=
  (∑ e : Fin 172, bMerged x0 x1 x2 x3 x4 x5 x6 x7 x8 x9 x10 x11 x12 p e * x13 (ix2 e q)) + x14 (ix1 q)

end

end Cert.Pool

end
-- ==== Proof.RefValue.lean ====
/-
  The reference program's result, read entry by entry on the extended reals, is the layer's closed form.

  Each entry of the reference's last array is followed back through its operations: the final linear map is a sum over
  172 columns plus a bias; its left factor is the clipped first merge layer, a sum over 344 = 172 + 172 columns of the
  joined [pooled | source] array, split into its two halves; the pooled half is a maximum over the fifty neighbours,
  started from minus infinity, of the clipped, scaled hidden value; and the hidden value is a sum over
  444 = 172 + 172 + 100 columns of the three joined feature streams, split into its three parts, plus a bias.
-/
import proofs.«144029_j76166950028261_2_alg».proof.Proof.RefReadP
import proofs.«144029_j76166950028261_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.ReadP Idealize.ShloMosaic Idealize.ShloMosaic.ValueIdx

/-! ### A sum over a + b indices is the sum over the first a plus the sum over the last b -/

/-- A sum over `Fin n` with `n = a + b` splits at `a`. -/
theorem sum_fin_split {M : Type*} [AddCommMonoid M] {n : Nat} (a b : Nat) (h : a + b = n) (g : Fin n → M) :
    ∑ k : Fin n, g k
      = (∑ i : Fin a, g ⟨i.val, by have := i.isLt; omega⟩) + ∑ i : Fin b, g ⟨a + i.val, by have := i.isLt; omega⟩ := by
  subst h
  rw [Fin.sum_univ_add]
  rfl

/-! ### The three joined feature streams, read at a column of each part -/

section Streams
variable (x1 : (⟨S8192x50x172, .f32⟩ : BufTy).Contents (Elt Ideal)) (x2 : (⟨S8192x50x100, .f32⟩ : BufTy).Contents (Elt Ideal))
  (x3 : (⟨S8192x50x172, .f32⟩ : BufTy).Contents (Elt Ideal))

/-- A column of the first 172 reads the node stream. -/
theorem v0_first (b : Fin 8192) (n : Fin 50) (f : Fin 172) :
    val_main_v0 (F := Ideal) x1 x2 x3 (ix3 b n (Cert.Pool.colA f)) = x1 (ix3 b n f) := by
  unfold val_main_v0
  refine concatenate_apply_piece (t := S8192x50x444) (2 : Fin 3) [⟨S8192x50x172, x1⟩, ⟨S8192x50x172, x3⟩, ⟨S8192x50x100, x2⟩] _ _
    0 (by show 0 < 3; decide) S8192x50x172 x1 rfl rfl 0 rfl (ix3 b n f) ?_ ?_
  · intro c hc
    match c with
    | ⟨0, _⟩ => rfl
    | ⟨1, _⟩ => rfl
    | ⟨2, _⟩ => exact absurd rfl hc
  · exact Nat.zero_add _

/-- A column of the second 172 reads the edge stream. -/
theorem v0_second (b : Fin 8192) (n : Fin 50) (f : Fin 172) :
    val_main_v0 (F := Ideal) x1 x2 x3 (ix3 b n (Cert.Pool.colB f)) = x3 (ix3 b n f) := by
  unfold val_main_v0
  refine concatenate_apply_piece (t := S8192x50x444) (2 : Fin 3) [⟨S8192x50x172, x1⟩, ⟨S8192x50x172, x3⟩, ⟨S8192x50x100, x2⟩] _ _
    1 (by show 1 < 3; decide) S8192x50x172 x3 rfl rfl 172 rfl (ix3 b n f) ?_ ?_
  · intro c hc
    match c with
    | ⟨0, _⟩ => rfl
    | ⟨1, _⟩ => rfl
    | ⟨2, _⟩ => exact absurd rfl hc
  · rfl

/-- A column of the last 100 reads the time stream. -/
theorem v0_third (b : Fin 8192) (n : Fin 50) (f : Fin 100) :
    val_main_v0 (F := Ideal) x1 x2 x3 (ix3 b n (Cert.Pool.colC f)) = x2 (ix3 b n f) := by
  unfold val_main_v0
  refine concatenate_apply_piece (t := S8192x50x444) (2 : Fin 3) [⟨S8192x50x172, x1⟩, ⟨S8192x50x172, x3⟩, ⟨S8192x50x100, x2⟩] _ _
    2 (by show 2 < 3; decide) S8192x50x100 x2 rfl rfl 344 rfl (ix3 b n f) ?_ ?_
  · intro c hc
    match c with
    | ⟨0, _⟩ => rfl
    | ⟨1, _⟩ => rfl
    | ⟨2, _⟩ => exact absurd rfl hc
  · rfl

end Streams

/-! ### The hidden value: the sum over 444 columns, part by part, and the bias -/

section Hidden
variable (x1 : (⟨S8192x50x172, .f32⟩ : BufTy).Contents (Elt Ideal)) (x2 : (⟨S8192x50x100, .f32⟩ : BufTy).Contents (Elt Ideal))
  (x3 : (⟨S8192x50x172, .f32⟩ : BufTy).Contents (Elt Ideal)) (x6 : (⟨S172x444, .f32⟩ : BufTy).Contents (Elt Ideal))
  (x7 : (⟨S172, .f32⟩ : BufTy).Contents (Elt Ideal))

theorem lidx_v1 (b : Fin 8192) (n : Fin 50) (d : Fin 172) (k : Fin 444) : lidx_main_v1 (ix3 b n d) k = ix3 b n k :=
  funext fun a => Fin.ext (by match a with | ⟨0, _⟩ => rfl | ⟨1, _⟩ => rfl | ⟨2, _⟩ => rfl)

theorem ridx_v1 (b : Fin 8192) (n : Fin 50) (d : Fin 172) (k : Fin 444) : ridx_main_v1 (ix3 b n d) k = ix2 d k :=
  funext fun a => Fin.ext (by match a with | ⟨0, _⟩ => rfl | ⟨1, _⟩ => rfl)

theorem bias_v3 (b : Fin 8192) (n : Fin 50) (d : Fin 172) : idx_main_v2 (idx_main_v3 (ix3 b n d)) = ix1 d :=
  funext fun a => Fin.ext (by match a with | ⟨0, _⟩ => rfl)

/-- The inner product of the joined streams with row d of the transform matrix, plus the bias, is the hidden value. -/
theorem hidden_eq (b : Fin 8192) (n : Fin 50) (d : Fin 172) :
    val_main_v4 (F := Ideal) x1 x2 x3 x6 x7 (ix3 b n d) = Cert.Pool.hidden x1 x2 x3 x6 x7 b n d := by
  rw [val_main_v4_apply, val_main_v3_apply, val_main_v2_apply, val_main_v1_apply, bias_v3]
  simp only [lidx_v1, ridx_v1]
  rw [sum_fin_split (n := 444) 344 100 rfl, sum_fin_split (n := 344) 172 172 rfl]
  unfold Cert.Pool.hidden
  refine congrArg₂ (· + ·) (congrArg₂ (· + ·) (congrArg₂ (· + ·) ?_ ?_) ?_) rfl
  · exact Finset.sum_congr rfl fun f _ => congrArg (· * x6 (ix2 d (Cert.Pool.colA f))) (v0_first x1 x2 x3 b n f)
  · exact Finset.sum_congr rfl fun f _ => congrArg (· * x6 (ix2 d (Cert.Pool.colB f))) (v0_second x1 x2 x3 b n f)
  · exact Finset.sum_congr rfl fun f _ => congrArg (· * x6 (ix2 d (Cert.Pool.colC f))) (v0_third x1 x2 x3 b n f)

end Hidden

/-! ### The hidden value scaled by the weight and the validity, clipped at zero -/

section Clipped
variable (x1 : (⟨S8192x50x172, .f32⟩ : BufTy).Contents (Elt Ideal)) (x2 : (⟨S8192x50x100, .f32⟩ : BufTy).Contents (Elt Ideal))
  (x3 : (⟨S8192x50x172, .f32⟩ : BufTy).Contents (Elt Ideal)) (x4 : (⟨S8192x50, .i1⟩ : BufTy).Contents (Elt Ideal))
  (x5 : (⟨S8192x50, .f32⟩ : BufTy).Contents (Elt Ideal)) (x6 : (⟨S172x444, .f32⟩ : BufTy).Contents (Elt Ideal))
  (x7 : (⟨S172, .f32⟩ : BufTy).Contents (Elt Ideal))

theorem wts_v8 (b : Fin 8192) (n : Fin 50) (d : Fin 172) : idx_main_v7 (idx_main_v8 (ix3 b n d)) = ix2 b n :=
  funext fun a => Fin.ext (by match a with | ⟨0, _⟩ => rfl | ⟨1, _⟩ => rfl)

theorem msk_v11 (b : Fin 8192) (n : Fin 50) (d : Fin 172) : idx_main_v10 (idx_main_v11 (ix3 b n d)) = ix2 b n :=
  funext fun a => Fin.ext (by match a with | ⟨0, _⟩ => rfl | ⟨1, _⟩ => rfl)

/-- (hidden · weight) · validity is hidden · (weight · validity); the clip at zero is the same on both sides. -/
theorem clipped_eq (b : Fin 8192) (n : Fin 50) (d : Fin 172) :
    val_main_v13 (F := Ideal) x1 x2 x3 x4 x5 x6 x7 (ix3 b n d)
      = max (Cert.Pool.hidden x1 x2 x3 x6 x7 b n d * Cert.Pool.gate x4 x5 b n) Cert.Pool.zeroW := by
  rw [val_main_v13_apply, val_main_v12_apply, val_main_v9_apply, hidden_eq, val_main_v8_apply, val_main_v7_apply, wts_v8,
    val_main_v11_apply, val_main_v10_apply, msk_v11, val_main_v6_apply, val_main_v5_apply, val_main_call0_v0_apply,
    val_main_call0_cst_apply]
  show max (Cert.Pool.hidden x1 x2 x3 x6 x7 b n d * x5 (ix2 b n) * Cert.Pool.validOf (x4 (ix2 b n))) Cert.Pool.zeroW = _
  rw [mul_assoc]
  rfl

end Clipped

/-! ### The maximum over the fifty neighbours -/

section Pooled
variable (x1 : (⟨S8192x50x172, .f32⟩ : BufTy).Contents (Elt Ideal)) (x2 : (⟨S8192x50x100, .f32⟩ : BufTy).Contents (Elt Ideal))
  (x3 : (⟨S8192x50x172, .f32⟩ : BufTy).Contents (Elt Ideal)) (x4 : (⟨S8192x50, .i1⟩ : BufTy).Contents (Elt Ideal))
  (x5 : (⟨S8192x50, .f32⟩ : BufTy).Contents (Elt Ideal)) (x6 : (⟨S172x444, .f32⟩ : BufTy).Contents (Elt Ideal))
  (x7 : (⟨S172, .f32⟩ : BufTy).Contents (Elt Ideal))

/-- The reduced index (b, d) with neighbour n put back on axis 1 is (b, n, d). -/
theorem lift_ix3 (h : S8192x50x172.Reduces [1] S8192x172) (b : Fin 8192) (d : Fin 172) (n : Fin (S8192x50x172.size 1)) :
    h.lift (ix2 b d) n = ix3 b (⟨n.val, n.isLt⟩ : Fin 50) d := by
  funext c; apply Fin.ext
  fin_cases c <;> rfl

/-- The reduce over axis 1 with a maximum body, started from the word of minus infinity, is the pooled value. -/
theorem pooled_eq (b : Fin 8192) (d : Fin 172) :
    val_main_v14 (F := Ideal) x1 x2 x3 x4 x5 x6 x7 (ix2 b d) = Cert.Pool.pooled x1 x2 x3 x4 x5 x6 x7 b d := by
  unfold val_main_v14
  have h : S8192x50x172.Reduces [1] S8192x172 := by decide
  rw [Host.reduce_eq_fold_single FloatOps.maximumf _ _ _ h]
  unfold Cert.Pool.pooled
  refine congrArg (fun g => Finset.fold max Cert.Pool.negInfW g (Finset.univ : Finset (Fin 50))) (funext fun n => ?_)
  exact (congrArg (val_main_v13 (F := Ideal) x1 x2 x3 x4 x5 x6 x7) (lift_ix3 h b d n)).trans
    (clipped_eq x1 x2 x3 x4 x5 x6 x7 b n d)

end Pooled

/-! ### The first merge layer: the sum over 344 columns, half by half, the bias and the clip at zero -/

section Merged
variable (x0 : (⟨S8192x172, .f32⟩ : BufTy).Contents (Elt Ideal))
  (x1 : (⟨S8192x50x172, .f32⟩ : BufTy).Contents (Elt Ideal)) (x2 : (⟨S8192x50x100, .f32⟩ : BufTy).Contents (Elt Ideal))
  (x3 : (⟨S8192x50x172, .f32⟩ : BufTy).Contents (Elt Ideal)) (x4 : (⟨S8192x50, .i1⟩ : BufTy).Contents (Elt Ideal))
  (x5 : (⟨S8192x50, .f32⟩ : BufTy).Contents (Elt Ideal)) (x6 : (⟨S172x444, .f32⟩ : BufTy).Contents (Elt Ideal))
  (x7 : (⟨S172, .f32⟩ : BufTy).Contents (Elt Ideal)) (x8 : (⟨S172x344, .f32⟩ : BufTy).Contents (Elt Ideal))
  (x9 : (⟨S172, .f32⟩ : BufTy).Contents (Elt Ideal))

/-- A column of the first 172 of the joined array reads the pooled value. -/
theorem v15_left (b : Fin 8192) (e : Fin 172) :
    val_main_v15 (F := Ideal) x0 x1 x2 x3 x4 x5 x6 x7 (ix2 b (Cert.Pool.colP e))
      = Cert.Pool.pooled x1 x2 x3 x4 x5 x6 x7 b e := by
  unfold val_main_v15
  refine (concatenate_pair_apply_left (t := S8192x344) (s₁ := S8192x172) (s₂ := S8192x172) (1 : Fin 2)
      (val_main_v14 (F := Ideal) x1 x2 x3 x4 x5 x6 x7) x0 _ (ix2 b (Cert.Pool.colP e)) rfl (ix2 b e) ?_).trans
    (pooled_eq x1 x2 x3 x4 x5 x6 x7 b e)
  intro c
  match c with
  | ⟨0, _⟩ => rfl
  | ⟨1, _⟩ => rfl

/-- A column of the last 172 of the joined array reads the source node's vector. -/
theorem v15_right (b : Fin 8192) (e : Fin 172) :
    val_main_v15 (F := Ideal) x0 x1 x2 x3 x4 x5 x6 x7 (ix2 b (Cert.Pool.colS e)) = x0 (ix2 b e) := by
  unfold val_main_v15
  refine concatenate_pair_apply_right (t := S8192x344) (s₁ := S8192x172) (s₂ := S8192x172) (1 : Fin 2)
    (val_main_v14 (F := Ideal) x1 x2 x3 x4 x5 x6 x7) x0 _ (ix2 b (Cert.Pool.colS e)) rfl rfl (ix2 b e) ?_ ?_
  · intro c hc
    match c with
    | ⟨0, _⟩ => rfl
    | ⟨1, _⟩ => exact absurd rfl hc
  · exact Nat.add_comm _ _

theorem lidx_v17 (b : Fin 8192) (d : Fin 172) (k : Fin 344) : lidx_main_v17 (ix2 b d) k = ix2 b k :=
  funext fun a => Fin.ext (by match a with | ⟨0, _⟩ => rfl | ⟨1, _⟩ => rfl)

theorem ridx_v17 (b : Fin 8192) (d : Fin 172) (k : Fin 344) : idx_main_v16 (ridx_main_v17 (ix2 b d) k) = ix2 d k :=
  funext fun a => Fin.ext (by match a with | ⟨0, _⟩ => rfl | ⟨1, _⟩ => rfl)

theorem bias_v19 (b : Fin 8192) (d : Fin 172) : idx_main_v18 (idx_main_v19 (ix2 b d)) = ix1 d :=
  funext fun a => Fin.ext (by match a with | ⟨0, _⟩ => rfl)

/-- The clipped linear map of the joined [pooled | source] array is the first merge layer. -/
theorem merged_eq (b : Fin 8192) (d : Fin 172) :
    val_main_v21 (F := Ideal) x0 x1 x2 x3 x4 x5 x6 x7 x8 x9 (ix2 b d)
      = Cert.Pool.merged x0 x1 x2 x3 x4 x5 x6 x7 x8 x9 b d := by
  rw [val_main_v21_apply, val_main_v20_apply, val_main_v19_apply, val_main_v18_apply, bias_v19, val_main_v17_apply,
    val_main_call1_v0_apply, val_main_call1_cst_apply]
  simp only [val_main_v16_apply, lidx_v17, ridx_v17]
  rw [sum_fin_split (n := 344) 172 172 rfl]
  unfold Cert.Pool.merged
  refine congrArg₂ max (congrArg₂ (· + ·) (congrArg₂ (· + ·) ?_ ?_) rfl) rfl
  · exact Finset.sum_congr rfl fun e _ =>
      congrArg (· * x8 (ix2 d (Cert.Pool.colP e))) (v15_left x0 x1 x2 x3 x4 x5 x6 x7 b e)
  · exact Finset.sum_congr rfl fun e _ =>
      congrArg (· * x8 (ix2 d (Cert.Pool.colS e))) (v15_right x0 x1 x2 x3 x4 x5 x6 x7 b e)

end Merged

/-! ### The last linear map and the whole result -/

section Out
variable (x0 : (⟨S8192x172, .f32⟩ : BufTy).Contents (Elt Ideal))
  (x1 : (⟨S8192x50x172, .f32⟩ : BufTy).Contents (Elt Ideal)) (x2 : (⟨S8192x50x100, .f32⟩ : BufTy).Contents (Elt Ideal))
  (x3 : (⟨S8192x50x172, .f32⟩ : BufTy).Contents (Elt Ideal)) (x4 : (⟨S8192x50, .i1⟩ : BufTy).Contents (Elt Ideal))
  (x5 : (⟨S8192x50, .f32⟩ : BufTy).Contents (Elt Ideal)) (x6 : (⟨S172x444, .f32⟩ : BufTy).Contents (Elt Ideal))
  (x7 : (⟨S172, .f32⟩ : BufTy).Contents (Elt Ideal)) (x8 : (⟨S172x344, .f32⟩ : BufTy).Contents (Elt Ideal))
  (x9 : (⟨S172, .f32⟩ : BufTy).Contents (Elt Ideal)) (x10 : (⟨S172x172, .f32⟩ : BufTy).Contents (Elt Ideal))
  (x11 : (⟨S172, .f32⟩ : BufTy).Contents (Elt Ideal))

theorem lidx_v23 (b : Fin 8192) (d : Fin 172) (k : Fin 172) : lidx_main_v23 (ix2 b d) k = ix2 b k :=
  funext fun a => Fin.ext (by match a with | ⟨0, _⟩ => rfl | ⟨1, _⟩ => rfl)

theorem ridx_v23 (b : Fin 8192) (d : Fin 172) (k : Fin 172) : idx_main_v22 (ridx_main_v23 (ix2 b d) k) = ix2 d k :=
  funext fun a => Fin.ext (by match a with | ⟨0, _⟩ => rfl | ⟨1, _⟩ => rfl)

theorem bias_v25 (b : Fin 8192) (d : Fin 172) : idx_main_v24 (idx_main_v25 (ix2 b d)) = ix1 d :=
  funext fun a => Fin.ext (by match a with | ⟨0, _⟩ => rfl)

/-- The reference's last array at (b, d) is the layer's result there. -/
theorem out_eq (b : Fin 8192) (d : Fin 172) :
    val_main_v26 (F := Ideal) x0 x1 x2 x3 x4 x5 x6 x7 x8 x9 x10 x11 (ix2 b d)
      = Cert.Pool.out x0 x1 x2 x3 x4 x5 x6 x7 x8 x9 x10 x11 (ix2 b d) := by
  rw [val_main_v26_apply, val_main_v25_apply, val_main_v24_apply, bias_v25, val_main_v23_apply]
  simp only [val_main_v22_apply, lidx_v23, ridx_v23, merged_eq]
  rfl

/-- The reference's result array is the layer's result array. -/
theorem result_eq (x0 : (⟨S8192x172, .f32⟩ : BufTy).Contents (Elt Ideal)) (x1 : (⟨S8192x50x172, .f32⟩ : BufTy).Contents (Elt Ideal)) (x2 : (⟨S8192x50x100, .f32⟩ : BufTy).Contents (Elt Ideal)) (x3 : (⟨S8192x50x172, .f32⟩ : BufTy).Contents (Elt Ideal)) (x4 : (⟨S8192x50, .i1⟩ : BufTy).Contents (Elt Ideal)) (x5 : (⟨S8192x50, .f32⟩ : BufTy).Contents (Elt Ideal)) (x6 : (⟨S172x444, .f32⟩ : BufTy).Contents (Elt Ideal)) (x7 : (⟨S172, .f32⟩ : BufTy).Contents (Elt Ideal)) (x8 : (⟨S172x344, .f32⟩ : BufTy).Contents (Elt Ideal)) (x9 : (⟨S172, .f32⟩ : BufTy).Contents (Elt Ideal)) (x10 : (⟨S172x172, .f32⟩ : BufTy).Contents (Elt Ideal)) (x11 : (⟨S172, .f32⟩ : BufTy).Contents (Elt Ideal)) :
    val_main_v26 (F := Ideal) x0 x1 x2 x3 x4 x5 x6 x7 x8 x9 x10 x11 = Cert.Pool.out x0 x1 x2 x3 x4 x5 x6 x7 x8 x9 x10 x11 := by
  funext i
  obtain ⟨b, d, rfl⟩ : ∃ (b : Fin 8192) (d : Fin 172), i = ix2 b d := ⟨i 0, i 1, eq_ix2 i⟩
  exact out_eq x0 x1 x2 x3 x4 x5 x6 x7 x8 x9 x10 x11 b d

end Out

end Cert.ReferenceIdeal.RefValue

end
-- ==== Proof.Bridge.lean ====
/-
  One block's computation is the layer restricted to the block's 64 batch rows.

  Grid point t works on batch rows 64 t … 64 t + 63.  If each of its fifteen input blocks holds what the corresponding
  argument array holds on those rows (the three feature streams flattened to 50 rows per batch row, the mask widened
  to a word, the weight matrices cut into their column ranges and transposed), then the block-level result at (p, q)
  is the layer's result at (64 t + p, q): the two formulas agree term by term, and the only arithmetic is that the
  validity computed from the widened mask word is the complemented mask bit read as a number.
-/
import proofs.«144029_j76166950028261_2_alg».proof.Proof.Spec

noncomputable section

open scoped BigOperators

namespace Cert.Pool

open Idealize.ShloMosaic Idealize.ShloMosaic.ValueIdx

/-- Batch row p of block t. -/
abbrev rowOf (t : Fin 128) (p : Fin 64) : Fin 8192 := ⟨64 * t.val + p.val, by have := t.isLt; have := p.isLt; omega⟩

/-- On a widened one-bit word: comparing with zero, complementing, widening and reading signed gives the complemented bit
    read unsigned (both bits checked). -/
theorem validW_bits : ∀ mk : BitVec 1,
    ((IntOp.xori (IntOp.cmpi .ne (mk.setWidth 32) 0#32) 1#1).setWidth 32).toInt = (((~~~mk).toNat : ℕ) : ℤ) := by decide

/-- The validity the block computes from the widened mask word is the validity of the mask bit. -/
theorem validW_setWidth (mk : BitVec 1) : validW (mk.setWidth 32) = validOf mk := by
  unfold validW validOf
  rw [validW_bits mk]
  norm_cast

section
variable (src : FVec Ideal ⟨2, ![8192, 172]⟩ .f32) (nbr : FVec Ideal ⟨3, ![8192, 50, 172]⟩ .f32)
  (tim : FVec Ideal ⟨3, ![8192, 50, 100]⟩ .f32) (edg : FVec Ideal ⟨3, ![8192, 50, 172]⟩ .f32)
  (msk : IVec ⟨2, ![8192, 50]⟩ 1) (wts : FVec Ideal ⟨2, ![8192, 50]⟩ .f32)
  (Wt : FVec Ideal ⟨2, ![172, 444]⟩ .f32) (bt : FVec Ideal ⟨1, ![172]⟩ .f32)
  (W1 : FVec Ideal ⟨2, ![172, 344]⟩ .f32) (b1 : FVec Ideal ⟨1, ![172]⟩ .f32)
  (W2 : FVec Ideal ⟨2, ![172, 172]⟩ .f32) (b2 : FVec Ideal ⟨1, ![172]⟩ .f32)
  (x0 x1 : FVec Ideal ⟨2, ![3200, 172]⟩ .f32) (x2 : FVec Ideal ⟨2, ![3200, 100]⟩ .f32)
  (x3 : IVec ⟨2, ![64, 50]⟩ 32) (x4 : FVec Ideal ⟨2, ![64, 50]⟩ .f32) (x5 : FVec Ideal ⟨2, ![64, 172]⟩ .f32)
  (x6 x7 : FVec Ideal ⟨2, ![172, 172]⟩ .f32) (x8 : FVec Ideal ⟨2, ![100, 172]⟩ .f32) (x9 : FVec Ideal ⟨1, ![172]⟩ .f32)
  (x10 x11 : FVec Ideal ⟨2, ![172, 172]⟩ .f32) (x12 : FVec Ideal ⟨1, ![172]⟩ .f32)
  (x13 : FVec Ideal ⟨2, ![172, 172]⟩ .f32) (x14 : FVec Ideal ⟨1, ![172]⟩ .f32)
  (t : Fin 128)

/-- The block-level result at (p, q) is the layer's result at batch row 64 t + p, feature q, when every input block
    holds its argument's entries for those rows. -/
theorem bOut_eq_out
    (h0 : ∀ (p : Fin 64) (n : Fin 50) (f : Fin 172), x0 (ix2 (flatRow p n) f) = nbr (ix3 (rowOf t p) n f))
    (h1 : ∀ (p : Fin 64) (n : Fin 50) (f : Fin 172), x1 (ix2 (flatRow p n) f) = edg (ix3 (rowOf t p) n f))
    (h2 : ∀ (p : Fin 64) (n : Fin 50) (f : Fin 100), x2 (ix2 (flatRow p n) f) = tim (ix3 (rowOf t p) n f))
    (h3 : ∀ (p : Fin 64) (n : Fin 50), x3 (ix2 p n) = (msk (ix2 (rowOf t p) n)).setWidth 32)
    (h4 : ∀ (p : Fin 64) (n : Fin 50), x4 (ix2 p n) = wts (ix2 (rowOf t p) n))
    (h5 : ∀ (p : Fin 64) (e : Fin 172), x5 (ix2 p e) = src (ix2 (rowOf t p) e))
    (h6 : ∀ (f d : Fin 172), x6 (ix2 f d) = Wt (ix2 d (colA f)))
    (h7 : ∀ (f d : Fin 172), x7 (ix2 f d) = Wt (ix2 d (colB f)))
    (h8 : ∀ (f : Fin 100) (d : Fin 172), x8 (ix2 f d) = Wt (ix2 d (colC f)))
    (h9 : ∀ d : Fin 172, x9 (ix1 d) = bt (ix1 d))
    (h10 : ∀ (e d : Fin 172), x10 (ix2 e d) = W1 (ix2 d (colP e)))
    (h11 : ∀ (e d : Fin 172), x11 (ix2 e d) = W1 (ix2 d (colS e)))
    (h12 : ∀ d : Fin 172, x12 (ix1 d) = b1 (ix1 d))
    (h13 : ∀ (e q : Fin 172), x13 (ix2 e q) = W2 (ix2 q e))
    (h14 : ∀ q : Fin 172, x14 (ix1 q) = b2 (ix1 q))
    (p : Fin 64) (q : Fin 172) :
    bOut x0 x1 x2 x3 x4 x5 x6 x7 x8 x9 x10 x11 x12 x13 x14 p q
      = out src nbr tim edg msk wts Wt bt W1 b1 W2 b2 (ix2 (rowOf t p) q) := by
  have hH : ∀ (p : Fin 64) (n : Fin 50) (d : Fin 172),
      bHidden x0 x1 x2 x6 x7 x8 x9 (flatRow p n) d = hidden nbr tim edg Wt bt (rowOf t p) n d := by
    intro p n d
    unfold bHidden hidden
    simp only [h0, h1, h2, h6, h7, h8, h9]
  have hG : ∀ (p : Fin 64) (n : Fin 50), bGate x3 x4 p n = gate msk wts (rowOf t p) n := by
    intro p n
    unfold bGate gate
    rw [h3, h4, validW_setWidth]
  have hP : ∀ (p : Fin 64) (d : Fin 172),
      bPooled x0 x1 x2 x3 x4 x6 x7 x8 x9 p d = pooled nbr tim edg msk wts Wt bt (rowOf t p) d := by
    intro p d
    unfold bPooled pooled
    simp only [hH, hG]
  have hM : ∀ (p : Fin 64) (d : Fin 172),
      bMerged x0 x1 x2 x3 x4 x5 x6 x7 x8 x9 x10 x11 x12 p d
        = merged src nbr tim edg msk wts Wt bt W1 b1 (rowOf t p) d := by
    intro p d
    unfold bMerged merged
    simp only [hP, h5, h10, h11, h12]
  unfold bOut out
  simp only [hM, h13, h14]

end

end Cert.Pool

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.Windows.lean ====
/-
  What each input block of a grid point holds, in terms of the argument arrays.

  The call's fifteen input arrays are the arguments themselves (weights of the neighbours, source features, the three
  biases) or arrays the host program computes from them before the call: the three feature streams flattened from
  [8192, 50, ·] to [409600, ·] (row 50 b + n of the flat array is neighbour n of batch row b), the padding mask widened to
  32-bit words, and the three weight matrices cut into column ranges and transposed.  Grid point t reads rows
  3200 t … 3200 t + 3199 of the flat streams and rows 64 t … 64 t + 63 of the per-row arrays, and the whole of every
  weight array.  Each lemma reads one block at explicit coordinates.
-/
import proofs.«144029_j76166950028261_2_alg».proof.Proof.Gen.KernelIdeal.Frame
import proofs.«144029_j76166950028261_2_alg».proof.Proof.Bridge
import proofs.«144029_j76166950028261_2_alg».proof.Proof.LibMatmulRead
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx Cert.Pool

variable (m : (ℓ : Loc nD τ sig) → Buf (Elt Ideal) ℓ)

/-- A grid point as a number below 128. -/
abbrev pt (t : Fin cfg0.N) : Fin 128 := Fin.cast (show cfg0.N = 128 from N_0) t

/-! ## The block index maps, decided over the 128 grid points -/

/-- The windows over per-row arrays (and the output) take block t along the rows and block 0 along the columns. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_15.index t (0 : Fin 2) = t.val ∧ win0_15.index t (1 : Fin 2) = 0) :=
  (by decide +kernel : ∀ t : Fin grid0.N, _)

/-- The windows over the weight arrays take block 0 at every point. -/
theorem idx_fixed : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ (win0_11.index t (0 : Fin 2) = 0 ∧ win0_11.index t (1 : Fin 2) = 0)
    ∧ win0_12.index t (0 : Fin 1) = 0
    ∧ (win0_13.index t (0 : Fin 2) = 0 ∧ win0_13.index t (1 : Fin 2) = 0)
    ∧ win0_14.index t (0 : Fin 1) = 0 :=
  (by decide +kernel : ∀ t : Fin grid0.N, _)

/-! ## The arrays the host program computes before the call -/

/-- The flattened node-feature stream. -/
theorem V_v11 (c : Dev nD) : (V m c main_v11 : S409600x172.Idx → Elt Ideal .f32)
    = shapeCast S409600x172 (m ((c : Thread nD τ).loc main_arg1) : S8192x50x172.Idx → Elt Ideal .f32) shapeCasts_S8192x50x172_S409600x172 := by
  dsimp only [Gen.V, Gen.hostOps0]
  after_results
  rfl

/-- The flattened edge-feature stream. -/
theorem V_v12 (c : Dev nD) : (V m c main_v12 : S409600x172.Idx → Elt Ideal .f32)
    = shapeCast S409600x172 (m ((c : Thread nD τ).loc main_arg3) : S8192x50x172.Idx → Elt Ideal .f32) shapeCasts_S8192x50x172_S409600x172 := by
  dsimp only [Gen.V, Gen.hostOps0]
  after_results
  rfl

/-- The flattened time-feature stream. -/
theorem V_v13 (c : Dev nD) : (V m c main_v13 : S409600x100.Idx → Elt Ideal .f32)
    = shapeCast S409600x100 (m ((c : Thread nD τ).loc main_arg2) : S8192x50x100.Idx → Elt Ideal .f32) shapeCasts_S8192x50x100_S409600x100 := by
  dsimp only [Gen.V, Gen.hostOps0]
  after_results
  rfl

/-- The padding mask widened to words. -/
theorem V_v14 (c : Dev nD) : (V m c main_v14 : S8192x50.Idx → Elt Ideal .i32)
    = extui 32 (m ((c : Thread nD τ).loc main_arg4) : S8192x50.Idx → Elt Ideal .i1) natLt_1_32 := by
  dsimp only [Gen.V, Gen.hostOps0]
  after_results

/-- Columns 0 … 171 of the transform matrix, transposed. -/
theorem V_v1 (c : Dev nD) : (V m c main_v1 : S172x172.Idx → Elt Ideal .f32)
    = transpose S172x172 [1, 0] (extractStridedSlice S172x172 ![0, 0] (m ((c : Thread nD τ).loc main_arg6) : S172x444.Idx → Elt Ideal .f32) slices_S172x444_S172x172_0_0) transposes_S172x172_S172x172_1_0 := by
  dsimp only [Gen.V, Gen.hostOps0]
  after_results

/-- Columns 172 … 343 of the transform matrix, transposed. -/
theorem V_v3 (c : Dev nD) : (V m c main_v3 : S172x172.Idx → Elt Ideal .f32)
    = transpose S172x172 [1, 0] (extractStridedSlice S172x172 ![0, 172] (m ((c : Thread nD τ).loc main_arg6) : S172x444.Idx → Elt Ideal .f32) slices_S172x444_S172x172_0_172) transposes_S172x172_S172x172_1_0 := by
  dsimp only [Gen.V, Gen.hostOps0]
  after_results

/-- Columns 344 … 443 of the transform matrix, transposed. -/
theorem V_v5 (c : Dev nD) : (V m c main_v5 : S100x172.Idx → Elt Ideal .f32)
    = transpose S100x172 [1, 0] (extractStridedSlice S172x100 ![0, 344] (m ((c : Thread nD τ).loc main_arg6) : S172x444.Idx → Elt Ideal .f32) slices_S172x444_S172x100_0_344) transposes_S172x100_S100x172_1_0 := by
  dsimp only [Gen.V, Gen.hostOps0]
  after_results

/-- Columns 0 … 171 of the first merge matrix, transposed. -/
theorem V_v7 (c : Dev nD) : (V m c main_v7 : S172x172.Idx → Elt Ideal .f32)
    = transpose S172x172 [1, 0] (extractStridedSlice S172x172 ![0, 0] (m ((c : Thread nD τ).loc main_arg8) : S172x344.Idx → Elt Ideal .f32) slices_S172x344_S172x172_0_0) transposes_S172x172_S172x172_1_0 := by
  dsimp only [Gen.V, Gen.hostOps0]
  after_results

/-- Columns 172 … 343 of the first merge matrix, transposed. -/
theorem V_v9 (c : Dev nD) : (V m c main_v9 : S172x172.Idx → Elt Ideal .f32)
    = transpose S172x172 [1, 0] (extractStridedSlice S172x172 ![0, 172] (m ((c : Thread nD τ).loc main_arg8) : S172x344.Idx → Elt Ideal .f32) slices_S172x344_S172x172_0_172) transposes_S172x172_S172x172_1_0 := by
  dsimp only [Gen.V, Gen.hostOps0]
  after_results

/-- The second merge matrix, transposed. -/
theorem V_v10 (c : Dev nD) : (V m c main_v10 : S172x172.Idx → Elt Ideal .f32)
    = transpose S172x172 [1, 0] (m ((c : Thread nD τ).loc main_arg10) : S172x172.Idx → Elt Ideal .f32) transposes_S172x172_S172x172_1_0 := by
  dsimp only [Gen.V, Gen.hostOps0]
  after_results

/-! ## The blocks of the per-row arrays at grid point t -/

/-- Row 50 p + n of the node-feature block is neighbour n of batch row 64 t + p. -/
theorem blk0 (c : Dev nD) (t : Fin cfg0.N) (p : Fin 64) (n : Fin 50) (f : Fin 172) :
    (iblk m c 0 t : Vec Ideal S3200x172 .f32) (ix2 (flatRow p n) f) = (m ((c : Thread nD τ).loc main_arg1) : S8192x50x172.Idx → Elt Ideal .f32) (ix3 (rowOf (pt t) p) n f) := by
  obtain ⟨e0, e1⟩ := (idx_rows t).1
  unfold iblk
  rw [View.read_apply]
  show V m c main_v11 _ = _
  rw [V_v11]
  refine shapeCast_apply _ _ _ _ ?_
  refine (Shape.rowMajor_val_three (d := ![8192, 50, 172]) (ix3 (rowOf (pt t) p) n f)).trans (Eq.trans ?_ (Shape.rowMajor_val_two (d := ![409600, 172]) _).symm)
  show ((64 * t.val + p.val) * 50 + n.val) * 172 + f.val
      = (win0_0.index t (0 : Fin 2) * 3200 + 1 * (p.val * 50 + n.val)) * 172 + (win0_0.index t (1 : Fin 2) * 172 + 1 * f.val)
  rw [e0, e1]
  omega

/-- Row 50 p + n of the edge-feature block is neighbour n of batch row 64 t + p. -/
theorem blk1 (c : Dev nD) (t : Fin cfg0.N) (p : Fin 64) (n : Fin 50) (f : Fin 172) :
    (iblk m c 1 t : Vec Ideal S3200x172 .f32) (ix2 (flatRow p n) f) = (m ((c : Thread nD τ).loc main_arg3) : S8192x50x172.Idx → Elt Ideal .f32) (ix3 (rowOf (pt t) p) n f) := by
  obtain ⟨e0, e1⟩ := (idx_rows t).2.1
  unfold iblk
  rw [View.read_apply]
  show V m c main_v12 _ = _
  rw [V_v12]
  refine shapeCast_apply _ _ _ _ ?_
  refine (Shape.rowMajor_val_three (d := ![8192, 50, 172]) (ix3 (rowOf (pt t) p) n f)).trans (Eq.trans ?_ (Shape.rowMajor_val_two (d := ![409600, 172]) _).symm)
  show ((64 * t.val + p.val) * 50 + n.val) * 172 + f.val
      = (win0_1.index t (0 : Fin 2) * 3200 + 1 * (p.val * 50 + n.val)) * 172 + (win0_1.index t (1 : Fin 2) * 172 + 1 * f.val)
  rw [e0, e1]
  omega

/-- Row 50 p + n of the time-feature block is neighbour n of batch row 64 t + p. -/
theorem blk2 (c : Dev nD) (t : Fin cfg0.N) (p : Fin 64) (n : Fin 50) (f : Fin 100) :
    (iblk m c 2 t : Vec Ideal S3200x100 .f32) (ix2 (flatRow p n) f) = (m ((c : Thread nD τ).loc main_arg2) : S8192x50x100.Idx → Elt Ideal .f32) (ix3 (rowOf (pt t) p) n f) := by
  obtain ⟨e0, e1⟩ := (idx_rows t).2.2.1
  unfold iblk
  rw [View.read_apply]
  show V m c main_v13 _ = _
  rw [V_v13]
  refine shapeCast_apply _ _ _ _ ?_
  refine (Shape.rowMajor_val_three (d := ![8192, 50, 100]) (ix3 (rowOf (pt t) p) n f)).trans (Eq.trans ?_ (Shape.rowMajor_val_two (d := ![409600, 100]) _).symm)
  show ((64 * t.val + p.val) * 50 + n.val) * 100 + f.val
      = (win0_2.index t (0 : Fin 2) * 3200 + 1 * (p.val * 50 + n.val)) * 100 + (win0_2.index t (1 : Fin 2) * 100 + 1 * f.val)
  rw [e0, e1]
  omega

/-- Row p of the mask block is the widened mask of batch row 64 t + p. -/
theorem blk3 (c : Dev nD) (t : Fin cfg0.N) (p : Fin 64) (n : Fin 50) :
    (iblk m c 3 t : Vec Ideal S64x50 .i32) (ix2 p n)
      = ((m ((c : Thread nD τ).loc main_arg4) : S8192x50.Idx → Elt Ideal .i1) (ix2 (rowOf (pt t) p) n)).setWidth 32 := by
  obtain ⟨e0, e1⟩ := (idx_rows t).2.2.2.1
  unfold iblk
  rw [View.read_apply]
  show V m c main_v14 _ = _
  rw [V_v14]
  refine congrArg (fun i => ((m ((c : Thread nD τ).loc main_arg4) : S8192x50.Idx → Elt Ideal .i1) i).setWidth 32) (funext fun a => Fin.ext ?_)
  match a with
  | ⟨0, _⟩ => show win0_3.index t (0 : Fin 2) * 64 + 1 * p.val = 64 * t.val + p.val; rw [e0]; omega
  | ⟨1, _⟩ => show win0_3.index t (1 : Fin 2) * 50 + 1 * n.val = n.val; rw [e1]; omega

/-- Row p of the weight block is the weights of batch row 64 t + p. -/
theorem blk4 (c : Dev nD) (t : Fin cfg0.N) (p : Fin 64) (n : Fin 50) :
    (iblk m c 4 t : Vec Ideal S64x50 .f32) (ix2 p n) = (m ((c : Thread nD τ).loc main_arg5) : S8192x50.Idx → Elt Ideal .f32) (ix2 (rowOf (pt t) p) n) := by
  obtain ⟨e0, e1⟩ := (idx_rows t).2.2.2.2.1
  unfold iblk
  rw [View.read_apply]
  show V m c main_arg5 _ = _
  rw [V_main_arg5]
  refine congrArg (m ((c : Thread nD τ).loc main_arg5) : S8192x50.Idx → Elt Ideal .f32) (funext fun a => Fin.ext ?_)
  match a with
  | ⟨0, _⟩ => show win0_4.index t (0 : Fin 2) * 64 + 1 * p.val = 64 * t.val + p.val; rw [e0]; omega
  | ⟨1, _⟩ => show win0_4.index t (1 : Fin 2) * 50 + 1 * n.val = n.val; rw [e1]; omega

/-- Row p of the source block is the source features of batch row 64 t + p. -/
theorem blk5 (c : Dev nD) (t : Fin cfg0.N) (p : Fin 64) (e : Fin 172) :
    (iblk m c 5 t : Vec Ideal S64x172 .f32) (ix2 p e) = (m ((c : Thread nD τ).loc main_arg0) : S8192x172.Idx → Elt Ideal .f32) (ix2 (rowOf (pt t) p) e) := by
  obtain ⟨e0, e1⟩ := (idx_rows t).2.2.2.2.2.1
  unfold iblk
  rw [View.read_apply]
  show V m c main_arg0 _ = _
  rw [V_main_arg0]
  refine congrArg (m ((c : Thread nD τ).loc main_arg0) : S8192x172.Idx → Elt Ideal .f32) (funext fun a => Fin.ext ?_)
  match a with
  | ⟨0, _⟩ => show win0_5.index t (0 : Fin 2) * 64 + 1 * p.val = 64 * t.val + p.val; rw [e0]; omega
  | ⟨1, _⟩ => show win0_5.index t (1 : Fin 2) * 172 + 1 * e.val = e.val; rw [e1]; omega

/-! ## The weight blocks, the same at every grid point -/

/-- Entry (f, d) of the first stream's weights is the transform matrix at row d, column f. -/
theorem blk6 (c : Dev nD) (t : Fin cfg0.N) (f : Fin 172) (d : Fin 172) :
    (iblk m c 6 t : Vec Ideal S172x172 .f32) (ix2 f d) = (m ((c : Thread nD τ).loc main_arg6) : S172x444.Idx → Elt Ideal .f32) (ix2 d (colA f)) := by
  obtain ⟨e0, e1⟩ := (idx_fixed t).1
  unfold iblk
  rw [View.read_apply]
  show V m c main_v1 _ = _
  rw [V_v1]
  refine (transpose_apply [1, 0] _ transposes_S172x172_S172x172_1_0 _ (ix2 d f) fun b => ?_).trans ?_
  · match b with
    | ⟨0, _⟩ => show f.val = win0_6.index t (0 : Fin 2) * 172 + 1 * f.val; rw [e0]; omega
    | ⟨1, _⟩ => show d.val = win0_6.index t (1 : Fin 2) * 172 + 1 * d.val; rw [e1]; omega
  · refine extractStridedSlice_apply ![0, 0] _ slices_S172x444_S172x172_0_0 (ix2 d f) (ix2 d (colA f)) fun a => ?_
    match a with
    | ⟨0, _⟩ => show d.val = 0 + d.val; omega
    | ⟨1, _⟩ => show f.val = 0 + f.val; omega

/-- Entry (f, d) of the second stream's weights is the transform matrix at row d, column 172 + f. -/
theorem blk7 (c : Dev nD) (t : Fin cfg0.N) (f : Fin 172) (d : Fin 172) :
    (iblk m c 7 t : Vec Ideal S172x172 .f32) (ix2 f d) = (m ((c : Thread nD τ).loc main_arg6) : S172x444.Idx → Elt Ideal .f32) (ix2 d (colB f)) := by
  obtain ⟨e0, e1⟩ := (idx_fixed t).2.1
  unfold iblk
  rw [View.read_apply]
  show V m c main_v3 _ = _
  rw [V_v3]
  refine (transpose_apply [1, 0] _ transposes_S172x172_S172x172_1_0 _ (ix2 d f) fun b => ?_).trans ?_
  · match b with
    | ⟨0, _⟩ => show f.val = win0_7.index t (0 : Fin 2) * 172 + 1 * f.val; rw [e0]; omega
    | ⟨1, _⟩ => show d.val = win0_7.index t (1 : Fin 2) * 172 + 1 * d.val; rw [e1]; omega
  · refine extractStridedSlice_apply ![0, 172] _ slices_S172x444_S172x172_0_172 (ix2 d f) (ix2 d (colB f)) fun a => ?_
    match a with
    | ⟨0, _⟩ => show d.val = 0 + d.val; omega
    | ⟨1, _⟩ => show 172 + f.val = 172 + f.val; omega

/-- Entry (f, d) of the third stream's weights is the transform matrix at row d, column 344 + f. -/
theorem blk8 (c : Dev nD) (t : Fin cfg0.N) (f : Fin 100) (d : Fin 172) :
    (iblk m c 8 t : Vec Ideal S100x172 .f32) (ix2 f d) = (m ((c : Thread nD τ).loc main_arg6) : S172x444.Idx → Elt Ideal .f32) (ix2 d (colC f)) := by
  obtain ⟨e0, e1⟩ := (idx_fixed t).2.2.1
  unfold iblk
  rw [View.read_apply]
  show V m c main_v5 _ = _
  rw [V_v5]
  refine (transpose_apply [1, 0] _ transposes_S172x100_S100x172_1_0 _ (ix2 d f) fun b => ?_).trans ?_
  · match b with
    | ⟨0, _⟩ => show f.val = win0_8.index t (0 : Fin 2) * 100 + 1 * f.val; rw [e0]; omega
    | ⟨1, _⟩ => show d.val = win0_8.index t (1 : Fin 2) * 172 + 1 * d.val; rw [e1]; omega
  · refine extractStridedSlice_apply ![0, 344] _ slices_S172x444_S172x100_0_344 (ix2 d f) (ix2 d (colC f)) fun a => ?_
    match a with
    | ⟨0, _⟩ => show d.val = 0 + d.val; omega
    | ⟨1, _⟩ => show 344 + f.val = 344 + f.val; omega

/-- The transform's bias. -/
theorem blk9 (c : Dev nD) (t : Fin cfg0.N) (d : Fin 172) :
    (iblk m c 9 t : Vec Ideal S172 .f32) (ix1 d) = (m ((c : Thread nD τ).loc main_arg7) : S172.Idx → Elt Ideal .f32) (ix1 d) := by
  have e0 := (idx_fixed t).2.2.2.1
  unfold iblk
  rw [View.read_apply]
  show V m c main_arg7 _ = _
  rw [V_main_arg7]
  refine congrArg (m ((c : Thread nD τ).loc main_arg7) : S172.Idx → Elt Ideal .f32) (funext fun a => Fin.ext ?_)
  match a with
  | ⟨0, _⟩ => show win0_9.index t (0 : Fin 1) * 172 + 1 * d.val = d.val; rw [e0]; omega

/-- Entry (e, d) of the pooled half's weights is the first merge matrix at row d, column e. -/
theorem blk10 (c : Dev nD) (t : Fin cfg0.N) (e : Fin 172) (d : Fin 172) :
    (iblk m c 10 t : Vec Ideal S172x172 .f32) (ix2 e d) = (m ((c : Thread nD τ).loc main_arg8) : S172x344.Idx → Elt Ideal .f32) (ix2 d (colP e)) := by
  obtain ⟨e0, e1⟩ := (idx_fixed t).2.2.2.2.1
  unfold iblk
  rw [View.read_apply]
  show V m c main_v7 _ = _
  rw [V_v7]
  refine (transpose_apply [1, 0] _ transposes_S172x172_S172x172_1_0 _ (ix2 d e) fun b => ?_).trans ?_
  · match b with
    | ⟨0, _⟩ => show e.val = win0_10.index t (0 : Fin 2) * 172 + 1 * e.val; rw [e0]; omega
    | ⟨1, _⟩ => show d.val = win0_10.index t (1 : Fin 2) * 172 + 1 * d.val; rw [e1]; omega
  · refine extractStridedSlice_apply ![0, 0] _ slices_S172x344_S172x172_0_0 (ix2 d e) (ix2 d (colP e)) fun a => ?_
    match a with
    | ⟨0, _⟩ => show d.val = 0 + d.val; omega
    | ⟨1, _⟩ => show e.val = 0 + e.val; omega

/-- Entry (e, d) of the source half's weights is the first merge matrix at row d, column 172 + e. -/
theorem blk11 (c : Dev nD) (t : Fin cfg0.N) (e : Fin 172) (d : Fin 172) :
    (iblk m c 11 t : Vec Ideal S172x172 .f32) (ix2 e d) = (m ((c : Thread nD τ).loc main_arg8) : S172x344.Idx → Elt Ideal .f32) (ix2 d (colS e)) := by
  obtain ⟨e0, e1⟩ := (idx_fixed t).2.2.2.2.2.1
  unfold iblk
  rw [View.read_apply]
  show V m c main_v9 _ = _
  rw [V_v9]
  refine (transpose_apply [1, 0] _ transposes_S172x172_S172x172_1_0 _ (ix2 d e) fun b => ?_).trans ?_
  · match b with
    | ⟨0, _⟩ => show e.val = win0_11.index t (0 : Fin 2) * 172 + 1 * e.val; rw [e0]; omega
    | ⟨1, _⟩ => show d.val = win0_11.index t (1 : Fin 2) * 172 + 1 * d.val; rw [e1]; omega
  · refine extractStridedSlice_apply ![0, 172] _ slices_S172x344_S172x172_0_172 (ix2 d e) (ix2 d (colS e)) fun a => ?_
    match a with
    | ⟨0, _⟩ => show d.val = 0 + d.val; omega
    | ⟨1, _⟩ => show 172 + e.val = 172 + e.val; omega

/-- The first merge layer's bias. -/
theorem blk12 (c : Dev nD) (t : Fin cfg0.N) (d : Fin 172) :
    (iblk m c 12 t : Vec Ideal S172 .f32) (ix1 d) = (m ((c : Thread nD τ).loc main_arg9) : S172.Idx → Elt Ideal .f32) (ix1 d) := by
  have e0 := (idx_fixed t).2.2.2.2.2.2.1
  unfold iblk
  rw [View.read_apply]
  show V m c main_arg9 _ = _
  rw [V_main_arg9]
  refine congrArg (m ((c : Thread nD τ).loc main_arg9) : S172.Idx → Elt Ideal .f32) (funext fun a => Fin.ext ?_)
  match a with
  | ⟨0, _⟩ => show win0_12.index t (0 : Fin 1) * 172 + 1 * d.val = d.val; rw [e0]; omega

/-- Entry (e, q) of the last layer's weights is the second merge matrix at row q, column e. -/
theorem blk13 (c : Dev nD) (t : Fin cfg0.N) (e : Fin 172) (q : Fin 172) :
    (iblk m c 13 t : Vec Ideal S172x172 .f32) (ix2 e q) = (m ((c : Thread nD τ).loc main_arg10) : S172x172.Idx → Elt Ideal .f32) (ix2 q e) := by
  obtain ⟨e0, e1⟩ := (idx_fixed t).2.2.2.2.2.2.2.1
  unfold iblk
  rw [View.read_apply]
  show V m c main_v10 _ = _
  rw [V_v10]
  refine transpose_apply [1, 0] _ transposes_S172x172_S172x172_1_0 _ (ix2 q e) fun b => ?_
  match b with
  | ⟨0, _⟩ => show e.val = win0_13.index t (0 : Fin 2) * 172 + 1 * e.val; rw [e0]; omega
  | ⟨1, _⟩ => show q.val = win0_13.index t (1 : Fin 2) * 172 + 1 * q.val; rw [e1]; omega

/-- The last layer's bias. -/
theorem blk14 (c : Dev nD) (t : Fin cfg0.N) (d : Fin 172) :
    (iblk m c 14 t : Vec Ideal S172 .f32) (ix1 d) = (m ((c : Thread nD τ).loc main_arg11) : S172.Idx → Elt Ideal .f32) (ix1 d) := by
  have e0 := (idx_fixed t).2.2.2.2.2.2.2.2
  unfold iblk
  rw [View.read_apply]
  show V m c main_arg11 _ = _
  rw [V_main_arg11]
  refine congrArg (m ((c : Thread nD τ).loc main_arg11) : S172.Idx → Elt Ideal .f32) (funext fun a => Fin.ext ?_)
  match a with
  | ⟨0, _⟩ => show win0_14.index t (0 : Fin 1) * 172 + 1 * d.val = d.val; rw [e0]; omega

end Cert.KernelIdeal.Windows

end
-- ==== Proof.BodyValue.lean ====
/-
  The kernel body's stored value, entry by entry, on the extended reals.

  The body stores ONE value into the whole 64 x 172 output block.  That value is built in three stages:
    • the hidden array [64, 50, 172]: three matrix products of the flattened neighbour rows (3200 = 64 * 50 of them)
      with the three transform matrices, plus the bias, regrouped from [3200, 172] to [64, 50, 172];
    • the gate array [64, 50, 172]: each neighbour's weight times its validity, repeated along the 172 features;
    • the result: the product of the two clipped below at zero, its maximum over the fifty neighbours started from
      minus infinity, two matrix products (pooled half, source half) with a bias and a clip at zero, and a last
      matrix product with a bias.
  Each stage is read at an index given by its coordinates; narrowing to bf16 and a cast to the same shape are the
  identity on the extended reals, a matrix product from the zero accumulator is the sum over the contracted
  coordinate, and a bias vector viewed as one row and repeated down the rows reads its own entry.  Together the three
  readings say that the output block at (p, q) is the block-level function `Cert.Pool.bOut` of the fifteen input blocks.
-/
import proofs.«144029_j76166950028261_2_alg».proof.Proof.Gen.KernelIdeal.Frame
import proofs.«144029_j76166950028261_2_alg».proof.Proof.Spec
import proofs.«144029_j76166950028261_2_alg».proof.Proof.LibMatmulRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## Operations that are not pointwise, read at an index -/

/-- A product of two f32 arrays, both passed through a same-shape cast and the (exact) narrowing, from the zero
    accumulator, read at (p, q): the sum over the contracted coordinate. -/
theorem matmul_cast_cast_apply {a k b : ℕ} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![a, k]⟩ .f32) (w : FVec Ideal ⟨2, ![k, b]⟩ .f32)
    (hx : (⟨2, ![a, k]⟩ : Shape).ShapeCasts ⟨2, ![a, k]⟩) (hw : (⟨2, ![k, b]⟩ : Shape).ShapeCasts ⟨2, ![k, b]⟩)
    (hb : FTy.bits .bf16 < FTy.bits .f32) (p : Fin a) (q : Fin b) :
    matmul D none (truncf .bf16 (shapeCast ⟨2, ![a, k]⟩ x hx) hb) (truncf .bf16 (shapeCast ⟨2, ![k, b]⟩ w hw) hb)
        (constant (F := Ideal) ⟨2, ![a, b]⟩ .f32 0x00000000#32) (ix2 p q)
      = ∑ d : Fin k, x (ix2 p d) * w (ix2 d q) := by
  rw [shapeCast_self, shapeCast_self]
  exact matmul_ix2_apply D hlc hrc hln hrn hlb hrb none (truncf .bf16 x hb) (truncf .bf16 w hb) p q

/-- The same with only the right operand passed through the same-shape cast. -/
theorem matmul_plain_cast_apply {a k b : ℕ} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![a, k]⟩ .f32) (w : FVec Ideal ⟨2, ![k, b]⟩ .f32)
    (hw : (⟨2, ![k, b]⟩ : Shape).ShapeCasts ⟨2, ![k, b]⟩)
    (hb : FTy.bits .bf16 < FTy.bits .f32) (p : Fin a) (q : Fin b) :
    matmul D none (truncf .bf16 x hb) (truncf .bf16 (shapeCast ⟨2, ![k, b]⟩ w hw) hb)
        (constant (F := Ideal) ⟨2, ![a, b]⟩ .f32 0x00000000#32) (ix2 p q)
      = ∑ d : Fin k, x (ix2 p d) * w (ix2 d q) := by
  rw [shapeCast_self]
  exact matmul_ix2_apply D hlc hrc hln hrn hlb hrb none (truncf .bf16 x hb) (truncf .bf16 w hb) p q

/-- A bias vector viewed as one row and repeated down the rows reads, at (p, q), its entry q. -/
theorem bias_apply {a b : ℕ} (v : FVec Ideal ⟨1, ![b]⟩ .f32) (hc : (⟨1, ![b]⟩ : Shape).ShapeCasts ⟨2, ![1, b]⟩)
    (hbr : (⟨2, ![1, b]⟩ : Shape).Broadcasts ⟨2, ![a, b]⟩) (p : Fin a) (q : Fin b) :
    broadcastTo ⟨2, ![a, b]⟩ (shapeCast ⟨2, ![1, b]⟩ v hc) hbr (ix2 p q) = v (ix1 q) :=
  (broadcastTo_1b_ab_apply _ hbr p q).trans (shapeCast_a_1a_apply v hc 0 q)

/-! ## The gate and the hidden arrays -/

/-- The gate payload at (p, n, d): the weight at (p, n) times the validity read off the mask word at (p, n);
    the trailing unit axis and its broadcast along the features carry no information. -/
theorem pay3_apply (x3 : Vec Ideal S64x50 .i32) (x4 : FVec Ideal S64x50 .f32) (p : Fin 64) (n : Fin 50) (d : Fin 172) :
    Gen.k0_pay3 (F := Ideal) x3 x4 (ix3 p n d) = Cert.Pool.bGate x3 x4 p n := by
  unfold Gen.k0_pay3
  refine (broadcastTo_apply _ _ (ix3 p n d) (ix3 p n (0 : Fin 1)) ?_).trans ?_
  · intro a
    match a with
    | ⟨0, _⟩ => rfl
    | ⟨1, _⟩ => rfl
    | ⟨2, _⟩ => rfl
  refine (shapeCast_apply _ _ (ix3 p n (0 : Fin 1)) (ix2 p n) ?_).trans ?_
  · rw [Shape.rowMajor_val_two, Shape.rowMajor_val_three]
    show p.val * 50 + n.val = (p.val * 50 + n.val) * 1 + 0
    omega
  rfl

/-- The hidden payload at (p, n, d): the regrouping of the 3200 flattened rows into 64 x 50 reads row p * 50 + n, and
    there the three products and the bias are the block's hidden value. -/
theorem pay2_apply (x0 x1 : FVec Ideal S3200x172 .f32) (x2 : FVec Ideal S3200x100 .f32) (x6 x7 : FVec Ideal S172x172 .f32)
    (x8 : FVec Ideal S100x172 .f32) (x9 : FVec Ideal S172 .f32) (p : Fin 64) (n : Fin 50) (d : Fin 172) :
    Gen.k0_pay2 (F := Ideal) x0 x1 x2 x6 x7 x8 x9 (ix3 p n d)
      = Cert.Pool.bHidden x0 x1 x2 x6 x7 x8 x9 (Cert.Pool.flatRow p n) d := by
  unfold Gen.k0_pay2
  refine (shapeCast_apply _ _ (ix3 p n d) (ix2 (Cert.Pool.flatRow p n) d) ?_).trans ?_
  · rw [Shape.rowMajor_val_two, Shape.rowMajor_val_three]
    show (p.val * 50 + n.val) * 172 + d.val = (p.val * 50 + n.val) * 172 + d.val
    rfl
  unfold Cert.Pool.bHidden
  refine congrArg₂ (· + ·) (congrArg₂ (· + ·) (congrArg₂ (· + ·) ?_ ?_) ?_) ?_
  · exact matmul_cast_cast_apply _ rfl rfl rfl rfl rfl rfl x0 x6 _ _ _ _ _
  · exact matmul_cast_cast_apply _ rfl rfl rfl rfl rfl rfl x1 x7 _ _ _ _ _
  · exact matmul_cast_cast_apply _ rfl rfl rfl rfl rfl rfl x2 x8 _ _ _ _ _
  · exact bias_apply x9 _ _ _ _

/-! ## The pool, the merge layer and the last layer -/

/-- The maximum over the fifty neighbours, started from minus infinity, of the product of two [64, 50, 172] arrays
    clipped below at zero. -/
def poolOf (h g : FVec Ideal S64x50x172 .f32) (p : Fin 64) (d : Fin 172) : EReal :=
  (Finset.univ : Finset (Fin 50)).fold max Cert.Pool.negInfW
    (fun n => max (h (ix3 p n d) * g (ix3 p n d)) Cert.Pool.zeroW)

/-- The reduced index (p, d) with neighbour k put back on the middle axis is (p, k, d). -/
theorem lift_ix3 (hr : S64x50x172.Reduces [1] S64x172) (p : Fin 64) (d : Fin 172) (k : Fin (S64x50x172.size 1)) :
    hr.lift (ix2 p d) k = ix3 p (⟨k.val, k.isLt⟩ : Fin 50) d := by
  funext c; apply Fin.ext
  fin_cases c <;> rfl

/-- The maximum-reduction over the middle axis of the clipped product, read at (p, d). -/
theorem pooled_apply (h g : FVec Ideal S64x50x172 .f32) (hr : S64x50x172.Reduces [1] S64x172) (hφ : FKind.Formats .f32)
    (hacc : (0xFF800000#32 : BitVec 32) = FKind.maximumf.neutral .f32 hφ) (p : Fin 64) (d : Fin 172) :
    multiReduction (F := Ideal) .maximumf [1] S64x172
        (maximumf (mulf h g) (broadcast S64x50x172 (Scalar.ofBits (F := Ideal) .f32 0x00000000#32))) 0xFF800000#32 hr hφ hacc (ix2 p d)
      = poolOf h g p d := by
  refine (Ideal.multiReduction_maximumf_single _ _ hr hφ hacc (ix2 p d)).trans ?_
  have hf : ((maximumf (mulf h g) (broadcast S64x50x172 (Scalar.ofBits (F := Ideal) .f32 0x00000000#32))) ∘ hr.lift (ix2 p d))
      = fun n : Fin 50 => max (h (ix3 p n d) * g (ix3 p n d)) Cert.Pool.zeroW :=
    funext fun k => congrArg (maximumf (mulf h g) (broadcast S64x50x172 (Scalar.ofBits (F := Ideal) .f32 0x00000000#32))) (lift_ix3 hr p d k)
  exact congrArg (fun f => Finset.fold max Cert.Pool.negInfW f (Finset.univ : Finset (Fin 50))) hf

/-- The store's payload at (p, q) over ARBITRARY hidden and gate arrays: pool, first merge layer (pooled half, source
    half, bias, clip at zero), last linear map and bias. -/
theorem pay1_apply (h g : FVec Ideal S64x50x172 .f32) (x5 : FVec Ideal S64x172 .f32) (x10 x11 : FVec Ideal S172x172 .f32)
    (x12 : FVec Ideal S172 .f32) (x13 : FVec Ideal S172x172 .f32) (x14 : FVec Ideal S172 .f32) (p : Fin 64) (q : Fin 172) :
    Gen.k0_pay1 (F := Ideal) h g x5 x10 x11 x12 x13 x14 (ix2 p q)
      = (∑ e : Fin 172,
            max ((∑ e' : Fin 172, poolOf h g p e' * x10 (ix2 e' e)) + (∑ e' : Fin 172, x5 (ix2 p e') * x11 (ix2 e' e))
                  + x12 (ix1 e)) Cert.Pool.zeroW * x13 (ix2 e q))
          + x14 (ix1 q) := by
  unfold Gen.k0_pay1
  refine (addf_apply _ _ (ix2 p q)).trans ?_
  refine congrArg₂ (· + ·) ?_ (bias_apply x14 _ _ p q)
  refine (matmul_plain_cast_apply _ rfl rfl rfl rfl rfl rfl _ x13 _ _ p q).trans ?_
  refine Finset.sum_congr rfl fun e _ => ?_
  refine congrArg (· * x13 (ix2 e q)) ?_
  refine (maximumf_apply _ _ (ix2 p e)).trans ?_
  refine congrArg (max · Cert.Pool.zeroW) ?_
  refine (addf_apply _ _ (ix2 p e)).trans ?_
  refine congrArg₂ (· + ·) ?_ (bias_apply x12 _ _ p e)
  refine (addf_apply _ _ (ix2 p e)).trans ?_
  refine congrArg₂ (· + ·) ?_ ?_
  · refine (matmul_plain_cast_apply _ rfl rfl rfl rfl rfl rfl _ x10 _ _ p e).trans ?_
    refine Finset.sum_congr rfl fun e' _ => ?_
    refine congrArg (· * x10 (ix2 e' e)) ?_
    exact pooled_apply h g _ _ _ p e'
  · exact matmul_plain_cast_apply _ rfl rfl rfl rfl rfl rfl x5 x11 _ _ p e

/-! ## The three stages together -/

/-- The pool of the body's hidden and gate arrays is the block's pooled value. -/
theorem pool_eq (x0 x1 : FVec Ideal S3200x172 .f32) (x2 : FVec Ideal S3200x100 .f32) (x3 : Vec Ideal S64x50 .i32)
    (x4 : FVec Ideal S64x50 .f32) (x6 x7 : FVec Ideal S172x172 .f32) (x8 : FVec Ideal S100x172 .f32)
    (x9 : FVec Ideal S172 .f32) (p : Fin 64) (d : Fin 172) :
    poolOf (Gen.k0_pay2 (F := Ideal) x0 x1 x2 x6 x7 x8 x9) (Gen.k0_pay3 (F := Ideal) x3 x4) p d
      = Cert.Pool.bPooled x0 x1 x2 x3 x4 x6 x7 x8 x9 p d := by
  unfold poolOf Cert.Pool.bPooled
  refine congrArg (fun f => Finset.fold max Cert.Pool.negInfW f (Finset.univ : Finset (Fin 50))) (funext fun n => ?_)
  rw [pay2_apply, pay3_apply]

/-- The zero offsets of a rank-1 and of a rank-2 rectangle, as constant functions. -/
theorem off1_zero : (![0] : Fin 1 → Nat) = fun _ => 0 := funext fun a => by fin_cases a; rfl
theorem off2_zero : (![0, 0] : Fin 2 → Nat) = fun _ => 0 := funext fun a => by fin_cases a <;> rfl

/-- What the body leaves in the output block, at (p, q): the block-level function of the input blocks.  The one store
    covers the block at offset zero, so the block holds the store's payload; each load reads a whole input block. -/
theorem out_apply (x0 x1 : Vec Ideal S3200x172 .f32) (x2 : Vec Ideal S3200x100 .f32) (x3 : Vec Ideal S64x50 .i32)
    (x4 : Vec Ideal S64x50 .f32) (x5 : Vec Ideal S64x172 .f32) (x6 x7 : Vec Ideal S172x172 .f32)
    (x8 : Vec Ideal S100x172 .f32) (x9 : Vec Ideal S172 .f32) (x10 x11 : Vec Ideal S172x172 .f32)
    (x12 : Vec Ideal S172 .f32) (x13 : Vec Ideal S172x172 .f32) (x14 : Vec Ideal S172 .f32) (p : Fin 64) (q : Fin 172) :
    Gen.out0_15 (F := Ideal) x0 x1 x2 x3 x4 x5 x6 x7 x8 x9 x10 x11 x12 x13 x14 (ix2 p q)
      = Cert.Pool.bOut x0 x1 x2 x3 x4 x5 x6 x7 x8 x9 x10 x11 x12 x13 x14 p q := by
  unfold Gen.out0_15
  rw [View.canon_unit_zero off2_zero]
  simp only [View.ld_unit_zero (S := S3200x172) off2_zero, View.ld_unit_zero (S := S3200x100) off2_zero,
    View.ld_unit_zero (S := S172x172) off2_zero, View.ld_unit_zero (S := S100x172) off2_zero,
    View.ld_unit_zero (S := S172) off1_zero, View.ld_unit_zero (S := S64x50) off2_zero,
    View.ld_unit_zero (S := S64x172) off2_zero]
  refine (pay1_apply _ _ x5 x10 x11 x12 x13 x14 p q).trans ?_
  simp only [pool_eq]
  rfl

end Cert.KernelIdeal.BodyValue

end
-- ==== Proof.KernelValue.lean ====
/-
  The kernel's result array after the run is the layer's closed form of the argument arrays.

  Grid point t computes, from its fifteen input blocks, a 64 × 172 block and writes it back as rows 64 t … 64 t + 63 of
  the result array.  Read entry by entry the block's computation is the block-level closed form; with every input block
  read through its window that is the layer's closed form at batch row 64 t + p; and the 128 blocks of 64 rows tile the
  8192 rows, so the array ends holding the closed form everywhere.
-/
import proofs.«144029_j76166950028261_2_alg».proof.Proof.Gen.KernelIdeal.Value
import proofs.«144029_j76166950028261_2_alg».proof.Proof.Windows
import proofs.«144029_j76166950028261_2_alg».proof.Proof.BodyValue
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Pool Cert.KernelIdeal.Windows Cert.KernelIdeal.BodyValue

variable (m : (ℓ : Loc nD τ sig) → Buf (Elt Ideal) ℓ) (ρ : Dev nD → PrngReg)

/-- The layer's closed form of the argument arrays as launched on core c. -/
abbrev result (c : Dev nD) : S8192x172.Idx → Elt Ideal .f32 :=
  Cert.Pool.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- What grid point t writes back is block t of the closed form. -/
theorem flushed_eq (c : Dev nD) (t : Fin cfg0.N) :
    (dats m 0 c).flushed 15 t = ((cfg0.win 15).blk t).view.read (Elt Ideal) (result m c) := by
  obtain ⟨e0, e1⟩ := (idx_rows t).2.2.2.2.2.2
  rw [Cert.KernelIdeal.Value.flushed15]
  funext y
  obtain ⟨p, q, rfl⟩ : ∃ (p : Fin 64) (q : Fin 172), y = (ix2 p q : S64x172.Idx) := ⟨y 0, y 1, eq_ix2 (n0 := 64) (n1 := 172) y⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = result m c (((cfg0.win 15).blk t).view.emb (ix2 p q))
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  refine (bOut_eq_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (pt t) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) p q).trans ?_
  refine congrArg (result m c) (funext fun a => Fin.ext ?_)
  match a with
  | ⟨0, _⟩ => show 64 * t.val + p.val = win0_15.index t (0 : Fin 2) * 64 + 1 * p.val; rw [e0]; omega
  | ⟨1, _⟩ => show q.val = win0_15.index t (1 : Fin 2) * 172 + 1 * q.val; rw [e1]; omega

/-- Every entry of the result array is in some grid point's block: row r is in block r / 64. -/
theorem cover (c : Dev nD) (i : S8192x172.Idx) :
    ∃ t : Fin cfg0.N, (cfg0.win 15).flush t = true ∧ i ∈ ((cfg0.win 15).blk t).view.set := by
  have hi0 : (i 0).val < 8192 := (i 0).isLt
  have hi1 : (i 1).val < 172 := (i 1).isLt
  obtain ⟨t, ht⟩ : ∃ t : Fin cfg0.N, t.val = (i 0).val / 64 :=
    ⟨⟨(i 0).val / 64, by rw [show cfg0.N = 128 from N_0]; omega⟩, rfl⟩
  obtain ⟨e0, e1⟩ := (idx_rows t).2.2.2.2.2.2
  refine ⟨t, flush0_15 t, ?_⟩
  show i ∈ ((View.whole main_v15).slice (win0_15.rect t)).set
  rw [View.set_slice_whole, Rect.mem_set_unit]
  intro a
  match a with
  | ⟨0, _⟩ =>
    show win0_15.index t (0 : Fin 2) * 64 ≤ (i 0).val ∧ (i 0).val < win0_15.index t (0 : Fin 2) * 64 + 64
    rw [e0, ht]; omega
  | ⟨1, _⟩ =>
    show win0_15.index t (1 : Fin 2) * 172 ≤ (i 1).val ∧ (i 1).val < win0_15.index t (1 : Fin 2) * 172 + 172
    rw [e1]; omega

/-- The result array after the run. -/
theorem final (c : Dev nD) : (dats m 0 c).arrAt 15 cfg0.N = result m c :=
  (dats m 0 c).arrAt_eq_of_cover 15 (result m c) (fun t _ => flushed_eq m c t) (cover c)

/-- The kernel's run, read: the result array at the closed form, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.KernelIdeal.KernelValue

end
-- ==== Proof.lean ====
/-
  A neighbour-pooling layer, on the extended reals: the kernel and its reference compute one function.

  For every batch row the layer transforms each of fifty neighbours' features (node, edge and time features, 444
  numbers) by a linear map with a bias, scales the result by the neighbour's weight and by its validity (the complement
  of its padding bit), clips it below at zero, takes the maximum over the neighbours, and sends the pooled vector together
  with the row's own features through two more linear layers, the first clipped at zero.

  The kernel works on blocks of 64 batch rows.  It takes the three feature streams flattened to one row per neighbour
  and multiplies each by its own column range of the transform matrix, cut out and transposed beforehand, and adds the
  three products; the reference joins the streams and multiplies once.  The same holds for the first merge layer (pooled
  half and source half).  A sum over 444 = 172 + 172 + 100 (or 344 = 172 + 172) indices taken part by part is the whole
  sum, and (h · w) · v = h · (w · v); both hold for all extended reals, so the inputs' finiteness is never used.  Changes of
  float format are the identity on the extended reals.

  Spec.lean states the layer as one function of the argument arrays; RefValue.lean reads the reference's run back to it;
  BodyValue.lean reads one block's computation, Windows.lean what each block holds, Bridge.lean joins the two, and
  KernelValue.lean tiles the 128 blocks into the result array.
-/
import proofs.«144029_j76166950028261_2_alg».proof.Defs
import proofs.«144029_j76166950028261_2_alg».proof.Proof.Gen.Kernel
import proofs.«144029_j76166950028261_2_alg».proof.Proof.Gen.Kernel.Skeleton
import proofs.«144029_j76166950028261_2_alg».proof.Proof.Gen.Kernel.Launch
import proofs.«144029_j76166950028261_2_alg».proof.Proof.Gen.Kernel.Points
import proofs.«144029_j76166950028261_2_alg».proof.Proof.Gen.Kernel.Frame
import proofs.«144029_j76166950028261_2_alg».proof.Proof.Gen.KernelIdeal
import proofs.«144029_j76166950028261_2_alg».proof.Proof.Gen.KernelIdeal.Skeleton
import proofs.«144029_j76166950028261_2_alg».proof.Proof.Gen.KernelIdeal.Launch
import proofs.«144029_j76166950028261_2_alg».proof.Proof.Gen.KernelIdeal.Points
import proofs.«144029_j76166950028261_2_alg».proof.Proof.Gen.KernelIdeal.Frame
import proofs.«144029_j76166950028261_2_alg».proof.Proof.Gen.ReferenceIdeal
import proofs.«144029_j76166950028261_2_alg».proof.Proof.Gen.Pre_finite_inputs
import proofs.«144029_j76166950028261_2_alg».proof.Proof.Gen.KernelIdeal.Value
import proofs.«144029_j76166950028261_2_alg».proof.Proof.RefRunP
import proofs.«144029_j76166950028261_2_alg».proof.Proof.RefReadP
import proofs.«144029_j76166950028261_2_alg».proof.Proof.RefValue
import proofs.«144029_j76166950028261_2_alg».proof.Proof.KernelValue
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- On the extended reals the kernel's result array and the reference's both end at the layer's closed form of the
    argument arrays, which agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v26_eq, Cert.ReferenceIdeal.RefValue.result_eq,
    a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
